-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S5000x1 : Shape := ⟨2, ![5000, 1]⟩

abbrev nBuf : Space → Nat
  | .hbm => 120
  | .vmem => 51
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S50000, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S_, .f32⟩
  | .hbm, ⟨25, _⟩ => ⟨S800000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .f32⟩
  | .hbm, ⟨49, _⟩ => ⟨S800000, .f32⟩
  | .hbm, ⟨50, _⟩ => ⟨S50000, .f32⟩
  | .hbm, ⟨51, _⟩ => ⟨S50000x1, .f32⟩
  | .hbm, ⟨52, _⟩ => ⟨S1x64, .f32⟩
  | .hbm, ⟨53, _⟩ => ⟨S50000x64, .f32⟩
  | .hbm, ⟨54, _⟩ => ⟨S_, .f32⟩
  | .hbm, ⟨55, _⟩ => ⟨S64, .f32⟩
  | .hbm, ⟨56, _⟩ => ⟨S1x64, .f32⟩
  | .hbm, ⟨57, _⟩ => ⟨S50000x64, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x64, .f32⟩
  | .hbm, ⟨67, _⟩ => ⟨S800000x1, .f32⟩
  | .hbm, ⟨68, _⟩ => ⟨S800000x64, .f32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S_, .f32⟩
  | .hbm, ⟨77, _⟩ => ⟨S64, .f32⟩
  | .hbm, ⟨78, _⟩ => ⟨S1x64, .f32⟩
  | .hbm, ⟨79, _⟩ => ⟨S50000x64, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x64, .f32⟩
  | .hbm, ⟨89, _⟩ => ⟨S800000x1, .f32⟩
  | .hbm, ⟨90, _⟩ => ⟨S800000x64, .f32⟩
  | .hbm, ⟨91, _⟩ => ⟨S800000x64, .f32⟩
  | .hbm, ⟨92, _⟩ => ⟨S_, .f32⟩
  | .hbm, ⟨93, _⟩ => ⟨S50000x64, .f32⟩
  | .hbm, ⟨94, _⟩ => ⟨S800000x1, .i32⟩
  | .hbm, ⟨95, _⟩ => ⟨S50000x64, .f32⟩
  | .hbm, ⟨96, _⟩ => ⟨S1x64, .f32⟩
  | .hbm, ⟨97, _⟩ => ⟨S50000x64, .f32⟩
  | .hbm, ⟨98, _⟩ => ⟨S_, .f32⟩
  | .hbm, ⟨99, _⟩ => ⟨S64, .f32⟩
  | .hbm, ⟨100, _⟩ => ⟨S1x64, .f32⟩
  | .hbm, ⟨101, _⟩ => ⟨S50000x64, .f32⟩
  | .hbm, ⟨102, _⟩ => ⟨S_, .i32⟩
  | .hbm, ⟨103, _⟩ => ⟨S800000, .i32⟩
  | .hbm, ⟨104, _⟩ => ⟨S800000, .i1⟩
  | .hbm, ⟨105, _⟩ => ⟨S_, .i32⟩
  | .hbm, ⟨106, _⟩ => ⟨S800000, .i32⟩
  | .hbm, ⟨107, _⟩ => ⟨S800000, .i32⟩
  | .hbm, ⟨108, _⟩ => ⟨S800000, .i32⟩
  | .hbm, ⟨109, _⟩ => ⟨S800000x1, .i32⟩
  | .hbm, ⟨110, _⟩ => ⟨S800000x64, .f32⟩
  | .hbm, ⟨111, _⟩ => ⟨S800000x1, .f32⟩
  | .hbm, ⟨112, _⟩ => ⟨S800000x64, .f32⟩
  | .hbm, ⟨113, _⟩ => ⟨S800000x64, .f32⟩
  | .hbm, ⟨114, _⟩ => ⟨S_, .f32⟩
  | .hbm, ⟨115, _⟩ => ⟨S50000x64, .f32⟩
  | .hbm, ⟨116, _⟩ => ⟨S800000x1, .i32⟩
  | .hbm, ⟨117, _⟩ => ⟨S50000x64, .f32⟩
  | .hbm, ⟨118, _⟩ => ⟨S1x64, .f32⟩
  | .hbm, ⟨119, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x1, .f32⟩
  | .local _ .vmem, ⟨32, _⟩ => ⟨S5000x1, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x1, .f32⟩
  | .local _ .vmem, ⟨47, _⟩ => ⟨S5000x1, .f32⟩
  | .local _ .vmem, ⟨48, _⟩ => ⟨S1x64, .f32⟩
  | .local _ .vmem, ⟨49, _⟩ => ⟨S5000x64, .f32⟩
  | .local _ .vmem, ⟨50, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_15 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_c_17 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_18 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg4_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc6_sem3_0 : DmaSem sig := 48
abbrev cc6_sem4_0 : DmaSem sig := 49
abbrev cc6_sem4_1 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S64 : S_.BroadcastsInDim S64 (![] : Fin 0 → Fin S64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S50000x1.size a
  hwx6_2 : ∀ i : grid6.Coords, EltTy.bits .f32 = 32 ∨ (Rect.block (s := S50000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S50000x64.size a
  hwx6_4 : ∀ i : grid6.Coords, EltTy.bits .f32 = 32 ∨ (Rect.block (s := S50000x64) S5000x64.size (cc6_transform_4 i) (hinb6_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v52) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v68) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v32) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v69) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v70) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v72) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v73) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v86) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v73) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v32) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v87) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v88) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩

abbrev nBuf : Space → Nat
  | .hbm => 207
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S50000x64, .f32⟩
  | 15 => ⟨S1x64, .f32⟩
  | 16 => ⟨S50000x64, .f32⟩
  | 17 => ⟨S50000x64, .f32⟩
  | 18 => ⟨S50000x64, .f32⟩
  | 19 => ⟨S_, .f32⟩
  | 20 => ⟨S50000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S_, .f32⟩
  | 30 => ⟨S800000, .f32⟩
  | 31 => ⟨S50000, .f32⟩
  | 32 => ⟨S_, .f32⟩
  | 33 => ⟨S50000, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S800000x1, .f32⟩
  | 65 => ⟨S800000x64, .f32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S50000, .f32⟩
  | 72 => ⟨S50000x1, .f32⟩
  | 73 => ⟨S50000x64, .f32⟩
  | 74 => ⟨S50000x64, .f32⟩
  | 75 => ⟨S50000x64, .f32⟩
  | 76 => ⟨S1x64, .f32⟩
  | 77 => ⟨S50000x64, .f32⟩
  | 78 => ⟨S50000x64, .f32⟩
  | 79 => ⟨S_, .f32⟩
  | 80 => ⟨S50000x64, .f32⟩
  | 81 => ⟨S50000x64, .f32⟩
  | 82 => ⟨S50000x64, .f32⟩
  | 83 => ⟨S_, .f32⟩
  | 84 => ⟨S50000, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S_, .f32⟩
  | 94 => ⟨S800000, .f32⟩
  | 95 => ⟨S50000, .f32⟩
  | 96 => ⟨S_, .f32⟩
  | 97 => ⟨S50000, .f32⟩
  | 98 => ⟨S50000, .f32⟩
  | 99 => ⟨S50000, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000, .f32⟩
  | 118 => ⟨S800000, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x64, .f32⟩
  | _ => ⟨S50000x128, .f32⟩

abbrev hbmTy0_1 (i : Nat) : BufTy := match i % 128 with
  | 0 => ⟨S800000x1, .f32⟩
  | 1 => ⟨S800000x64, .f32⟩
  | 2 => ⟨S800000x64, .f32⟩
  | 3 => ⟨S_, .f32⟩
  | 4 => ⟨S50000x64, .f32⟩
  | 5 => ⟨S800000x1, .i32⟩
  | 6 => ⟨S50000x64, .f32⟩
  | 7 => ⟨S50000, .f32⟩
  | 8 => ⟨S50000x1, .f32⟩
  | 9 => ⟨S50000x64, .f32⟩
  | 10 => ⟨S50000x64, .f32⟩
  | 11 => ⟨S50000x64, .f32⟩
  | 12 => ⟨S1x64, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S50000x64, .f32⟩
  | 19 => ⟨S_, .f32⟩
  | 20 => ⟨S50000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S_, .f32⟩
  | 30 => ⟨S800000, .f32⟩
  | 31 => ⟨S50000, .f32⟩
  | 32 => ⟨S_, .f32⟩
  | 33 => ⟨S50000, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S800000x1, .f32⟩
  | 65 => ⟨S800000x64, .f32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S50000, .f32⟩
  | 72 => ⟨S50000x1, .f32⟩
  | 73 => ⟨S50000x64, .f32⟩
  | 74 => ⟨S50000x64, .f32⟩
  | 75 => ⟨S50000x64, .f32⟩
  | 76 => ⟨S1x64, .f32⟩
  | 77 => ⟨S50000x64, .f32⟩
  | 78 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call0_cst : Ref sig .tc := ⟨.hbm, 79, rfl⟩
abbrev main_call0_v0 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_c_11 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_17 : Ref sig .tc := ⟨.hbm, 109, rfl⟩
abbrev main_v78 : Ref sig .tc := ⟨.hbm, 110, rfl⟩
abbrev main_v79 : Ref sig .tc := ⟨.hbm, 111, rfl⟩
abbrev main_c_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_19 : Ref sig .tc := ⟨.hbm, 119, rfl⟩
abbrev main_v86 : Ref sig .tc := ⟨.hbm, 120, rfl⟩
abbrev main_v87 : Ref sig .tc := ⟨.hbm, 121, rfl⟩
abbrev main_c_20 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_21 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_call1_cst : Ref sig .tc := ⟨.hbm, 143, rfl⟩
abbrev main_call1_v0 : Ref sig .tc := ⟨.hbm, 144, rfl⟩
abbrev main_v107 : Ref sig .tc := ⟨.hbm, 145, rfl⟩
abbrev main_v108 : Ref sig .tc := ⟨.hbm, 146, rfl⟩
abbrev main_cst_22 : Ref sig .tc := ⟨.hbm, 147, rfl⟩
abbrev main_v109 : Ref sig .tc := ⟨.hbm, 148, rfl⟩
abbrev main_c_23 : Ref sig .tc := ⟨.hbm, 149, rfl⟩
abbrev main_v110 : Ref sig .tc := ⟨.hbm, 150, rfl⟩
abbrev main_v111 : Ref sig .tc := ⟨.hbm, 151, rfl⟩
abbrev main_c_24 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_25 : Ref sig .tc := ⟨.hbm, 157, rfl⟩
abbrev main_v116 : Ref sig .tc := ⟨.hbm, 158, rfl⟩
abbrev main_v117 : Ref sig .tc := ⟨.hbm, 159, rfl⟩
abbrev main_cst_26 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_c_27 : Ref sig .tc := ⟨.hbm, 164, rfl⟩
abbrev main_v121 : Ref sig .tc := ⟨.hbm, 165, rfl⟩
abbrev main_v122 : Ref sig .tc := ⟨.hbm, 166, rfl⟩
abbrev main_c_28 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_c_29 : Ref sig .tc := ⟨.hbm, 173, rfl⟩
abbrev main_v128 : Ref sig .tc := ⟨.hbm, 174, rfl⟩
abbrev main_v129 : Ref sig .tc := ⟨.hbm, 175, rfl⟩
abbrev main_c_30 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_c_31 : Ref sig .tc := ⟨.hbm, 183, rfl⟩
abbrev main_v136 : Ref sig .tc := ⟨.hbm, 184, rfl⟩
abbrev main_v137 : Ref sig .tc := ⟨.hbm, 185, rfl⟩
abbrev main_c_32 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_33 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.ResultRun.lean ====
/-
  The kernel program's run, with its result named.

  The program is seven kernel launches among stretches of host operations. Its buffers' contents at each boundary
  are a fold from the launch memory: a host stretch applies its operations, a launch replaces its output array by
  what its grid points write back and leaves every other buffer alone. At the end every buffer that outlives the
  program holds the last fold's value; this module reads that fact at the program's result (the last launch's
  output array) as well as at the ten arguments, which no step writes.
-/
import proofs.«153233_j59854664237127_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with its result array at the last fold's
    value there and its ten arguments as launched. -/
theorem run_result : θ_run defs (onTc (τ := τ) (main (F := F))) ⟨m, fun _ => 0, ρ⟩ (fun r => ∀ c : Dev nD,
      r.2.mem ((c.tc : Thread nD τ).loc main_v88) = W14 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v88 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Result

end
-- ==== Proof.LibPlainDot.lean ====
/-
  Indices of a plain matrix product, built from an output index and a shared coordinate.

  For an M×K matrix times a K×N matrix, entry (r, c) of the product is the sum over k of l (r, k) · r (k, c).
  `lhsAt i k` is the left operand's index (i 0, k), `rhsAt i k` the right operand's (k, i 1), and `rowAt i` is
  (0, i 1): where a one-row matrix added to every row is read.
-/
import Idealize.ShloMosaic.Lib.ValueIdx

namespace Idealize.ShloMosaic.PlainDot

open Idealize.ShloMosaic

/-- The left operand's index for output index `i` and shared coordinate `k`: (i 0, k). -/
abbrev lhsAt {M K N : Nat} (i : (⟨2, ![M, N]⟩ : Shape).Idx) (k : Fin K) : (⟨2, ![M, K]⟩ : Shape).Idx :=
  fun a => match a with
  | ⟨0, _⟩ => ⟨(i 0).val, (i 0).isLt⟩
  | ⟨1, _⟩ => ⟨k.val, k.isLt⟩

/-- The right operand's index: (k, i 1). -/
abbrev rhsAt {M K N : Nat} (i : (⟨2, ![M, N]⟩ : Shape).Idx) (k : Fin K) : (⟨2, ![K, N]⟩ : Shape).Idx :=
  fun a => match a with
  | ⟨0, _⟩ => ⟨k.val, k.isLt⟩
  | ⟨1, _⟩ => ⟨(i 1).val, (i 1).isLt⟩

/-- Column `i 1` of a one-row matrix: (0, i 1). -/
abbrev rowAt {M N : Nat} (i : (⟨2, ![M, N]⟩ : Shape).Idx) : (⟨2, ![1, N]⟩ : Shape).Idx :=
  fun a => match a with
  | ⟨0, _⟩ => ⟨0, Nat.one_pos⟩
  | ⟨1, _⟩ => ⟨(i 1).val, (i 1).isLt⟩

end Idealize.ShloMosaic.PlainDot
-- ==== Proof.LibRowForms.lean ====
/-
  Rows, columns and a plain matrix product, read at an index.

  A column is an [a, 1] array and a row a [1, b] array. Scaling every row of a matrix by its own factor
  multiplies entry (p, q) by the column's entry (p, 0); adding one row to every row adds the row's entry (0, q).
  A product of an M×K by a K×N matrix has, at (r, c), the sum over k of l (r, k) · r (k, c), whatever record
  spells the contraction, provided the record's operand indices have those coordinates.
-/
import Idealize.ShloMosaic.Lib.ValueIdx
import Idealize.ShloMosaic.Lib.ValueLayout
import Idealize.ShloMosaic.Lib.Pipeline.Value
import Idealize.ShloMosaic.PureOps.Ideal.Laws
import proofs.«153233_j59854664237127_1_alg».proof.Proof.LibPlainDot

noncomputable section

open scoped BigOperators

namespace Idealize.ShloMosaic.PlainDot

open Idealize.ShloMosaic Idealize.ShloMosaic.ValueIdx

variable {α : Type}

/-- Row `i 0` of a one-column matrix: (i 0, 0). -/
abbrev colAt {M N : Nat} (i : (⟨2, ![M, N]⟩ : Shape).Idx) : (⟨2, ![M, 1]⟩ : Shape).Idx :=
  fun a => match a with
  | ⟨0, _⟩ => ⟨(i 0).val, (i 0).isLt⟩
  | ⟨1, _⟩ => ⟨0, Nat.one_pos⟩

/-- An [a, 1] column broadcast to [a, b] reads, at `j`, the column's entry in `j`'s row. -/
theorem broadcastTo_col_apply {a b : ℕ} (v : (⟨2, ![a, 1]⟩ : Shape).Idx → α) (h : (⟨2, ![a, 1]⟩ : Shape).Broadcasts ⟨2, ![a, b]⟩)
    (j : (⟨2, ![a, b]⟩ : Shape).Idx) : broadcastTo ⟨2, ![a, b]⟩ v h j = v (colAt j) := by
  refine broadcastTo_apply v h j (colAt j) fun ax => ?_
  match ax with
  | ⟨0, _⟩ =>
    show (j 0).val = if a = 1 then 0 else (j 0).val
    split
    · have := (j 0).isLt
      have h0 : (j 0).val < a := this
      omega
    · rfl
  | ⟨1, _⟩ => rfl

/-- A [1, b] row broadcast to [a, b] reads, at `j`, the row's entry in `j`'s column. -/
theorem broadcastTo_row_apply {a b : ℕ} (v : (⟨2, ![1, b]⟩ : Shape).Idx → α) (h : (⟨2, ![1, b]⟩ : Shape).Broadcasts ⟨2, ![a, b]⟩)
    (j : (⟨2, ![a, b]⟩ : Shape).Idx) : broadcastTo ⟨2, ![a, b]⟩ v h j = v (rowAt j) := by
  refine broadcastTo_apply v h j (rowAt j) fun ax => ?_
  match ax with
  | ⟨0, _⟩ => rfl
  | ⟨1, _⟩ =>
    show (j 1).val = if b = 1 then 0 else (j 1).val
    split
    · have := (j 1).isLt
      have h1 : (j 1).val < b := this
      omega
    · rfl

/-- An [a] vector cast to an [a, 1] column reads, at `j`, the vector at `j`'s row. -/
theorem shapeCast_keepdims_apply {a : ℕ} (x : (⟨1, ![a]⟩ : Shape).Idx → α) (h : (⟨1, ![a]⟩ : Shape).ShapeCasts ⟨2, ![a, 1]⟩)
    (j : (⟨2, ![a, 1]⟩ : Shape).Idx) : shapeCast ⟨2, ![a, 1]⟩ x h j = x (ix1 ⟨(j 0).val, (j 0).isLt⟩) :=
  shapeCast_apply x h _ _ (by
    rw [Shape.rowMajor_val_two, Shape.rowMajor_val_one]
    have h1 : (j 1).val < 1 := (j 1).isLt
    show (j 0).val = (j 0).val * 1 + (j 1).val
    omega)

/-- The sum a plain product contracts over, re-indexed by the shared coordinate: for a record `D` whose one contracted
    axis has extent `K` and whose operand indices at output index `i` and contraction index `q` are (i 0, q) and (q, i 1). -/
theorem sum_contr_eq {M K N : ℕ} (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (l : (⟨2, ![M, K]⟩ : Shape).Idx → EReal) (r : (⟨2, ![K, N]⟩ : Shape).Idx → EReal) (i : (⟨2, ![M, N]⟩ : Shape).Idx) :
    ∑ q : D.contr.Idx, l (D.lhsIdx i q) * r (D.rhsIdx i q) = ∑ k : Fin K, l (lhsAt i k) * r (rhsAt i k) := by
  rw [← Equiv.sum_comp (contrEquiv1 D K hr hs).symm]
  refine Finset.sum_congr rfl fun k _ => ?_
  have hk := contrEquiv1_symm_val D K hr hs k
  have el : D.lhsIdx i ((contrEquiv1 D K hr hs).symm k) = lhsAt i k := funext fun a => Fin.ext (by
    match a with
    | ⟨0, _⟩ => exact hl0 _ _
    | ⟨1, _⟩ => exact (hl1 _ _).trans hk)
  have er : D.rhsIdx i ((contrEquiv1 D K hr hs).symm k) = rhsAt i k := funext fun a => Fin.ext (by
    match a with
    | ⟨0, _⟩ => exact (hr0 _ _).trans hk
    | ⟨1, _⟩ => exact hr1 _ _)
  rw [el, er]

/-! ## The host's `broadcast_in_dim` of a column, a row and a vector -/

/-- An [a, 1] column placed on both axes of [a, b] reads, at `j`, the column's entry in `j`'s row. -/
theorem broadcastInDim_col_apply {a b : ℕ} (h : (⟨2, ![a, 1]⟩ : Shape).BroadcastsInDim ⟨2, ![a, b]⟩ ![0, 1])
    (v : (⟨2, ![a, 1]⟩ : Shape).Idx → α) (j : (⟨2, ![a, b]⟩ : Shape).Idx) :
    broadcastInDim ⟨2, ![a, b]⟩ ![0, 1] h v j = v (colAt j) := by
  refine broadcastInDim_apply _ h v j (colAt j) fun ax => ?_
  match ax with
  | ⟨0, _⟩ =>
    show (j 0).val = if a = 1 then 0 else (j 0).val
    split
    · have h0 : (j 0).val < a := (j 0).isLt
      omega
    · rfl
  | ⟨1, _⟩ =>
    show 0 = if (1 : Nat) = 1 then 0 else (j 1).val
    rw [if_pos rfl]

/-- A [1, b] row placed on both axes of [a, b] reads, at `j`, the row's entry in `j`'s column. -/
theorem broadcastInDim_row_apply {a b : ℕ} (h : (⟨2, ![1, b]⟩ : Shape).BroadcastsInDim ⟨2, ![a, b]⟩ ![0, 1])
    (v : (⟨2, ![1, b]⟩ : Shape).Idx → α) (j : (⟨2, ![a, b]⟩ : Shape).Idx) :
    broadcastInDim ⟨2, ![a, b]⟩ ![0, 1] h v j = v (rowAt j) := by
  refine broadcastInDim_apply _ h v j (rowAt j) fun ax => ?_
  match ax with
  | ⟨0, _⟩ =>
    show 0 = if (1 : Nat) = 1 then 0 else (j 0).val
    rw [if_pos rfl]
  | ⟨1, _⟩ =>
    show (j 1).val = if b = 1 then 0 else (j 1).val
    split
    · have h1 : (j 1).val < b := (j 1).isLt
      omega
    · rfl

/-- An [a] vector placed on axis 0 of an [a, 1] column reads, at `j`, the vector at `j`'s row. -/
theorem broadcastInDim_keepdims_apply {a : ℕ} (h : (⟨1, ![a]⟩ : Shape).BroadcastsInDim ⟨2, ![a, 1]⟩ ![0])
    (v : (⟨1, ![a]⟩ : Shape).Idx → α) (j : (⟨2, ![a, 1]⟩ : Shape).Idx) :
    broadcastInDim ⟨2, ![a, 1]⟩ ![0] h v j = v (ix1 ⟨(j 0).val, (j 0).isLt⟩) := by
  refine broadcastInDim_apply _ h v j (ix1 ⟨(j 0).val, (j 0).isLt⟩) fun ax => ?_
  match ax with
  | ⟨0, _⟩ =>
    show (j 0).val = if a = 1 then 0 else (j 0).val
    split
    · have h0 : (j 0).val < a := (j 0).isLt
      omega
    · rfl

/-- A [b] vector placed on axis 1 of a [1, b] row reads, at `j`, the vector at `j`'s column. -/
theorem broadcastInDim_rowvec_apply {b : ℕ} (h : (⟨1, ![b]⟩ : Shape).BroadcastsInDim ⟨2, ![1, b]⟩ ![1])
    (v : (⟨1, ![b]⟩ : Shape).Idx → α) (j : (⟨2, ![1, b]⟩ : Shape).Idx) :
    broadcastInDim ⟨2, ![1, b]⟩ ![1] h v j = v (ix1 ⟨(j 1).val, (j 1).isLt⟩) := by
  refine broadcastInDim_apply _ h v j (ix1 ⟨(j 1).val, (j 1).isLt⟩) fun ax => ?_
  match ax with
  | ⟨0, _⟩ =>
    show (j 1).val = if b = 1 then 0 else (j 1).val
    split
    · have h1 : (j 1).val < b := (j 1).isLt
      omega
    · rfl

/-- A [b] vector cast to a [1, b] row reads, at `j`, the vector at `j`'s column. -/
theorem shapeCast_rowvec_apply {b : ℕ} (x : (⟨1, ![b]⟩ : Shape).Idx → α) (h : (⟨1, ![b]⟩ : Shape).ShapeCasts ⟨2, ![1, b]⟩)
    (j : (⟨2, ![1, b]⟩ : Shape).Idx) : shapeCast ⟨2, ![1, b]⟩ x h j = x (ix1 ⟨(j 1).val, (j 1).isLt⟩) :=
  shapeCast_apply x h _ _ (by
    rw [Shape.rowMajor_val_two, Shape.rowMajor_val_one]
    have h0 : (j 0).val < 1 := (j 0).isLt
    show (j 1).val = (j 0).val * b + (j 1).val
    have : (j 0).val = 0 := by omega
    rw [this, Nat.zero_mul, Nat.zero_add])

/-! ## Three layer shapes, entry by entry -/

/-- Rows scaled by a column, then a matrix product: entry (r, c) is the sum over k of (X (r, k) · s (r, 0)) · W (k, c). -/
def scaleDot {M K N : ℕ} (X : (⟨2, ![M, K]⟩ : Shape).Idx → EReal) (s : (⟨2, ![M, 1]⟩ : Shape).Idx → EReal)
    (W : (⟨2, ![K, N]⟩ : Shape).Idx → EReal) : (⟨2, ![M, N]⟩ : Shape).Idx → EReal :=
  fun i => ∑ k : Fin K, (X (lhsAt i k) * s (colAt i)) * W (rhsAt i k)

/-- One activated entry: the aggregate scaled by its row's factor, plus the bias of its column, floored at `z`. -/
def actAt {M K : ℕ} (z : EReal) (A : (⟨2, ![M, K]⟩ : Shape).Idx → EReal) (d : (⟨2, ![M, 1]⟩ : Shape).Idx → EReal)
    (b : (⟨2, ![1, K]⟩ : Shape).Idx → EReal) (i : (⟨2, ![M, K]⟩ : Shape).Idx) : EReal :=
  max (A i * d (colAt i) + b (rowAt i)) z

/-- Activated rows scaled by a second column, then a matrix product. -/
def actScaleDot {M K N : ℕ} (z : EReal) (A : (⟨2, ![M, K]⟩ : Shape).Idx → EReal) (d : (⟨2, ![M, 1]⟩ : Shape).Idx → EReal)
    (b : (⟨2, ![1, K]⟩ : Shape).Idx → EReal) (s : (⟨2, ![M, 1]⟩ : Shape).Idx → EReal)
    (W : (⟨2, ![K, N]⟩ : Shape).Idx → EReal) : (⟨2, ![M, N]⟩ : Shape).Idx → EReal :=
  fun i => ∑ k : Fin K, (actAt z A d b (lhsAt i k) * s (colAt i)) * W (rhsAt i k)

/-- Activated rows times a matrix, plus one row added to every row. -/
def actDotBias {M K N : ℕ} (z : EReal) (A : (⟨2, ![M, K]⟩ : Shape).Idx → EReal) (d : (⟨2, ![M, 1]⟩ : Shape).Idx → EReal)
    (b : (⟨2, ![1, K]⟩ : Shape).Idx → EReal) (W : (⟨2, ![K, N]⟩ : Shape).Idx → EReal)
    (o : (⟨2, ![1, N]⟩ : Shape).Idx → EReal) : (⟨2, ![M, N]⟩ : Shape).Idx → EReal :=
  fun i => (∑ k : Fin K, actAt z A d b (lhsAt i k) * W (rhsAt i k)) + o (rowAt i)

end Idealize.ShloMosaic.PlainDot

end
-- ==== Proof.Layers.lean ====
/-
  The entries of a graph-convolution network's two dense pieces.

  A linear piece: entry (r, c) of X·W plus a one-row bias is the sum over k of X (r, k) · W (k, c), plus the bias's
  entry in column c. A finishing piece: the aggregated messages at (r, c), plus the node's own transformed feature
  scaled by the node's factor (a column, read at row r), plus the bias in column c; optionally floored at a constant.
-/
import Idealize.ShloMosaic.PureOps.Ideal
import proofs.«153233_j59854664237127_1_alg».proof.Proof.LibRowForms

noncomputable section

open scoped BigOperators

namespace Cert.Layers

open Idealize.ShloMosaic Idealize.ShloMosaic.PlainDot

/-- Entry by entry: the product of an M×K by a K×N matrix, plus a one-row matrix added to every row. -/
def linAt {M K N : ℕ} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => (∑ k : Fin K, X (lhsAt i k) * W (rhsAt i k)) + B (rowAt i)

/-- Entry by entry: A + H scaled row by row by the column d, plus a one-row matrix added to every row. -/
def finAt {M N : ℕ} (A H : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => (A i + H i * d (colAt i)) + b (rowAt i)

/-- Entry by entry: the larger of an entry and a constant. -/
def floorAt {S : Shape} (z : EReal) (X : S.Idx → EReal) : S.Idx → EReal := fun i => max (X i) z

end Cert.Layers

end
-- ==== Proof.RegionLin0.lean ====
/-
  Kernel launch 0: a row-blocked matrix product plus a one-row bias.

  The grid has ten points; point t reads rows 5000·t … 5000·t + 4999 of the left operand, the whole right operand
  and the whole one-row bias, and writes the same rows of the result. Inside a block, entry (p, q) is the sum over
  k of left (p, k) · right (k, q), plus bias (0, q): the narrowing of the operands to a shorter float format is
  the identity on extended reals, and the product accumulates into zero. Row p of block t is row 5000·t + p of the
  arrays, so every block is the restriction of ONE whole-array function, and the ten blocks tile the result.
-/
import proofs.«153233_j59854664237127_1_alg».proof.Proof.Gen.KernelIdeal.Frame
import proofs.«153233_j59854664237127_1_alg».proof.Proof.Layers

set_option maxRecDepth 16384

noncomputable section

open scoped BigOperators

namespace Cert.KernelIdeal.Lin0

open Cert.KernelIdeal Cert.KernelIdeal.Gen Idealize.ShloMosaic Idealize.ShloMosaic.TcCoe Idealize.SL.Sem
open Idealize.ShloMosaic.PlainDot Idealize.ShloMosaic.ValueIdx Cert.Layers

variable (V : (c : Dev nD) → (b : Ref sig .tc) → Buf (Elt Ideal) ((c : Thread nD τ).loc b))

theorem zero_off : (![0, 0] : Fin 2 → Nat) = fun _ => 0 := funext fun a => by fin_cases a <;> rfl

/-- The block's stored value at (p, q): the sum over k of left (p, k) · right (k, q), plus the bias's entry (0, q). -/
theorem pay_apply (x0 : Vec Ideal S5000x128 .f32) (x1 : Vec Ideal S128x64 .f32) (x2 : Vec Ideal S1x64 .f32) (j : S5000x64.Idx) :
    k0_pay1 x0 x1 x2 j = (∑ k : Fin 128, x0 (lhsAt j k) * x1 (rhsAt j k)) + x2 (rowAt j) := by
  unfold k0_pay1
  refine (addf_apply _ _ j).trans ?_
  refine (congrArg₂ (· + ·) (Ideal.matmul_constant_zero_apply dot_S5000x128_S128x64_S5000x64_1_0_0_1_n_n none _ _ j) rfl).trans ?_
  rw [sum_contr_eq dot_S5000x128_S128x64_S5000x64_1_0_0_1_n_n rfl rfl (fun _ _ => rfl) (fun _ _ => rfl) (fun _ _ => rfl) (fun _ _ => rfl), broadcastTo_row_apply]
  simp only [shapeCast_self]
  rfl

/-- If the block's reads are the arrays' reads at the embedded index, the block's stored value at `j` is the
    whole-array entry at the embedded index `e`. -/
theorem lin_block (X : S50000x128.Idx → EReal) (W : S128x64.Idx → EReal) (B : S1x64.Idx → EReal)
    (x0 : Vec Ideal S5000x128 .f32) (x1 : Vec Ideal S128x64 .f32) (x2 : Vec Ideal S1x64 .f32) (j : S5000x64.Idx) (e : S50000x64.Idx)
    (r0 : ∀ k : Fin 128, x0 (lhsAt j k) = X (lhsAt e k)) (r1 : ∀ k : Fin 128, x1 (rhsAt j k) = W (rhsAt e k))
    (r2 : x2 (rowAt j) = B (rowAt e)) :
    k0_pay1 x0 x1 x2 j = linAt X W B e := by
  rw [pay_apply, r2]
  unfold linAt
  exact congrArg (· + _) (Finset.sum_congr rfl fun k _ => by rw [r0 k, r1 k])

/-- Where each window's block sits at grid point t: the left operand's and the result's at block row t, the right
    operand and the bias at the origin. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point t writes back is block t of the whole-array product plus bias. -/
theorem flushed_eq (c : Dev nD) (t : Fin cfg0.N) :
    (dat0 V c).flushed 3 t = ((cfg0.win 3).blk t).view.read (Elt Ideal) (linAt (V c main_arg0) (V c main_arg2) (V c main_v33)) := by
  show (cfg0.win 3).cut (grid0.coords t) ((dat0 V c).after 3 t) = _
  rw [after0_3]
  unfold out0_3
  rw [View.canon_unit_zero zero_off]
  simp only [View.ld_unit_zero (S := S5000x128) zero_off, View.ld_unit_zero (S := S128x64) zero_off, View.ld_unit_zero (S := S1x64) zero_off]
  obtain ⟨a0, a1, b0, b1, c0, c1, e0, e1⟩ := idx t
  funext j
  have hj0 : ((j : S5000x64.Idx) 0).val < 5000 := ((j : S5000x64.Idx) 0).isLt
  have hj1 : ((j : S5000x64.Idx) 1).val < 64 := ((j : S5000x64.Idx) 1).isLt
  have h0 : ∀ k : Fin 128, ((cfg0.win 0).blk t).view.emb (lhsAt (j : S5000x64.Idx) k) = lhsAt (((cfg0.win 3).blk t).view.emb j) k := fun k => by
    funext a; apply Fin.ext
    match a with
    | ⟨0, _⟩ => show win0_0.index t (0 : Fin 2) * 5000 + 1 * ((j : S5000x64.Idx) 0).val = win0_3.index t (0 : Fin 2) * 5000 + 1 * ((j : S5000x64.Idx) 0).val; omega
    | ⟨1, _⟩ => show win0_0.index t (1 : Fin 2) * 128 + 1 * k.val = k.val; omega
  have h1 : ∀ k : Fin 128, ((cfg0.win 1).blk t).view.emb (rhsAt (j : S5000x64.Idx) k) = rhsAt (((cfg0.win 3).blk t).view.emb j) k := fun k => by
    funext a; apply Fin.ext
    match a with
    | ⟨0, _⟩ => show win0_1.index t (0 : Fin 2) * 128 + 1 * k.val = k.val; omega
    | ⟨1, _⟩ => show win0_1.index t (1 : Fin 2) * 64 + 1 * ((j : S5000x64.Idx) 1).val = win0_3.index t (1 : Fin 2) * 64 + 1 * ((j : S5000x64.Idx) 1).val; omega
  have h2 : ((cfg0.win 2).blk t).view.emb (rowAt (j : S5000x64.Idx)) = rowAt (((cfg0.win 3).blk t).view.emb j) := by
    funext a; apply Fin.ext
    match a with
    | ⟨0, _⟩ => show win0_2.index t (0 : Fin 2) * 1 + 1 * 0 = 0; omega
    | ⟨1, _⟩ => show win0_2.index t (1 : Fin 2) * 64 + 1 * ((j : S5000x64.Idx) 1).val = win0_3.index t (1 : Fin 2) * 64 + 1 * ((j : S5000x64.Idx) 1).val; omega
  exact lin_block (V c main_arg0) (V c main_arg2) (V c main_v33) (iblk0 V c 0 t) (iblk0 V c 1 t) (iblk0 V c 2 t) j _
    (fun k => congrArg (V c main_arg0) (h0 k)) (fun k => congrArg (V c main_arg2) (h1 k)) (congrArg (V c main_v33) h2)

/-- An index of the result is in point t's block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v34).slice (win0_3.rect t)).set ↔ _
  rw [View.set_slice_whole, Rect.mem_set_unit]
  exact Iff.rfl

/-- Row r of the result lies in the block of point r / 5000: the ten blocks tile the array. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : grid0.N = 10 := N_0
  obtain ⟨t, ht⟩ : ∃ t : Fin cfg0.N, t.val = (i 0).val / 5000 := ⟨⟨(i 0).val / 5000, by show _ < grid0.N; rw [hN]; omega⟩, rfl⟩
  refine ⟨t, flush0_3 t, ?_⟩
  rw [mem_blk]
  obtain ⟨-, -, -, -, -, -, e0, e1⟩ := idx t
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The result array after the launch: the whole product plus bias, of the arrays as the launch finds them. -/
theorem final (c : Dev nD) : (dat0 V c).arrAt 3 cfg0.N = linAt (V c main_arg0) (V c main_arg2) (V c main_v33) :=
  (dat0 V c).arrAt_eq_of_cover 3 _ (fun t _ => flushed_eq V c t) cover

end Cert.KernelIdeal.Lin0

end
-- ==== Proof.RegionLin1.lean ====
/-
  Kernel launch 1: a row-blocked matrix product plus a one-row bias.

  The grid has ten points; point t reads rows 5000·t … 5000·t + 4999 of the left operand, the whole right operand
  and the whole one-row bias, and writes the same rows of the result. Inside a block, entry (p, q) is the sum over
  k of left (p, k) · right (k, q), plus bias (0, q): the narrowing of the operands to a shorter float format is
  the identity on extended reals, and the product accumulates into zero. Row p of block t is row 5000·t + p of the
  arrays, so every block is the restriction of ONE whole-array function, and the ten blocks tile the result.
-/
import proofs.«153233_j59854664237127_1_alg».proof.Proof.Gen.KernelIdeal.Frame
import proofs.«153233_j59854664237127_1_alg».proof.Proof.Layers

set_option maxRecDepth 16384

noncomputable section

open scoped BigOperators

namespace Cert.KernelIdeal.Lin1

open Cert.KernelIdeal Cert.KernelIdeal.Gen Idealize.ShloMosaic Idealize.ShloMosaic.TcCoe Idealize.SL.Sem
open Idealize.ShloMosaic.PlainDot Idealize.ShloMosaic.ValueIdx Cert.Layers

variable (V : (c : Dev nD) → (b : Ref sig .tc) → Buf (Elt Ideal) ((c : Thread nD τ).loc b))

theorem zero_off : (![0, 0] : Fin 2 → Nat) = fun _ => 0 := funext fun a => by fin_cases a <;> rfl

/-- The block's stored value at (p, q): the sum over k of left (p, k) · right (k, q), plus the bias's entry (0, q). -/
theorem pay_apply (x0 : Vec Ideal S5000x64 .f32) (x1 : Vec Ideal S64x64 .f32) (x2 : Vec Ideal S1x64 .f32) (j : S5000x64.Idx) :
    k1_pay1 x0 x1 x2 j = (∑ k : Fin 64, x0 (lhsAt j k) * x1 (rhsAt j k)) + x2 (rowAt j) := by
  unfold k1_pay1
  refine (addf_apply _ _ j).trans ?_
  refine (congrArg₂ (· + ·) (Ideal.matmul_constant_zero_apply dot_S5000x64_S64x64_S5000x64_1_0_0_1_n_n none _ _ j) rfl).trans ?_
  rw [sum_contr_eq dot_S5000x64_S64x64_S5000x64_1_0_0_1_n_n rfl rfl (fun _ _ => rfl) (fun _ _ => rfl) (fun _ _ => rfl) (fun _ _ => rfl), broadcastTo_row_apply]
  simp only [shapeCast_self]
  rfl

/-- If the block's reads are the arrays' reads at the embedded index, the block's stored value at `j` is the
    whole-array entry at the embedded index `e`. -/
theorem lin_block (X : S50000x64.Idx → EReal) (W : S64x64.Idx → EReal) (B : S1x64.Idx → EReal)
    (x0 : Vec Ideal S5000x64 .f32) (x1 : Vec Ideal S64x64 .f32) (x2 : Vec Ideal S1x64 .f32) (j : S5000x64.Idx) (e : S50000x64.Idx)
    (r0 : ∀ k : Fin 64, x0 (lhsAt j k) = X (lhsAt e k)) (r1 : ∀ k : Fin 64, x1 (rhsAt j k) = W (rhsAt e k))
    (r2 : x2 (rowAt j) = B (rowAt e)) :
    k1_pay1 x0 x1 x2 j = linAt X W B e := by
  rw [pay_apply, r2]
  unfold linAt
  exact congrArg (· + _) (Finset.sum_congr rfl fun k _ => by rw [r0 k, r1 k])

/-- Where each window's block sits at grid point t: the left operand's and the result's at block row t, the right
    operand and the bias at the origin. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point t writes back is block t of the whole-array product plus bias. -/
theorem flushed_eq (c : Dev nD) (t : Fin cfg1.N) :
    (dat1 V c).flushed 3 t = ((cfg1.win 3).blk t).view.read (Elt Ideal) (linAt (V c main_v34) (V c main_arg4) (V c main_v36)) := by
  show (cfg1.win 3).cut (grid1.coords t) ((dat1 V c).after 3 t) = _
  rw [after1_3]
  unfold out1_3
  rw [View.canon_unit_zero zero_off]
  simp only [View.ld_unit_zero (S := S5000x64) zero_off, View.ld_unit_zero (S := S64x64) zero_off, View.ld_unit_zero (S := S1x64) zero_off]
  obtain ⟨a0, a1, b0, b1, c0, c1, e0, e1⟩ := idx t
  funext j
  have hj0 : ((j : S5000x64.Idx) 0).val < 5000 := ((j : S5000x64.Idx) 0).isLt
  have hj1 : ((j : S5000x64.Idx) 1).val < 64 := ((j : S5000x64.Idx) 1).isLt
  have h0 : ∀ k : Fin 64, ((cfg1.win 0).blk t).view.emb (lhsAt (j : S5000x64.Idx) k) = lhsAt (((cfg1.win 3).blk t).view.emb j) k := fun k => by
    funext a; apply Fin.ext
    match a with
    | ⟨0, _⟩ => show win1_0.index t (0 : Fin 2) * 5000 + 1 * ((j : S5000x64.Idx) 0).val = win1_3.index t (0 : Fin 2) * 5000 + 1 * ((j : S5000x64.Idx) 0).val; omega
    | ⟨1, _⟩ => show win1_0.index t (1 : Fin 2) * 64 + 1 * k.val = k.val; omega
  have h1 : ∀ k : Fin 64, ((cfg1.win 1).blk t).view.emb (rhsAt (j : S5000x64.Idx) k) = rhsAt (((cfg1.win 3).blk t).view.emb j) k := fun k => by
    funext a; apply Fin.ext
    match a with
    | ⟨0, _⟩ => show win1_1.index t (0 : Fin 2) * 64 + 1 * k.val = k.val; omega
    | ⟨1, _⟩ => show win1_1.index t (1 : Fin 2) * 64 + 1 * ((j : S5000x64.Idx) 1).val = win1_3.index t (1 : Fin 2) * 64 + 1 * ((j : S5000x64.Idx) 1).val; omega
  have h2 : ((cfg1.win 2).blk t).view.emb (rowAt (j : S5000x64.Idx)) = rowAt (((cfg1.win 3).blk t).view.emb j) := by
    funext a; apply Fin.ext
    match a with
    | ⟨0, _⟩ => show win1_2.index t (0 : Fin 2) * 1 + 1 * 0 = 0; omega
    | ⟨1, _⟩ => show win1_2.index t (1 : Fin 2) * 64 + 1 * ((j : S5000x64.Idx) 1).val = win1_3.index t (1 : Fin 2) * 64 + 1 * ((j : S5000x64.Idx) 1).val; omega
  exact lin_block (V c main_v34) (V c main_arg4) (V c main_v36) (iblk1 V c 0 t) (iblk1 V c 1 t) (iblk1 V c 2 t) j _
    (fun k => congrArg (V c main_v34) (h0 k)) (fun k => congrArg (V c main_arg4) (h1 k)) (congrArg (V c main_v36) h2)

/-- An index of the result is in point t's block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v37).slice (win1_3.rect t)).set ↔ _
  rw [View.set_slice_whole, Rect.mem_set_unit]
  exact Iff.rfl

/-- Row r of the result lies in the block of point r / 5000: the ten blocks tile the array. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : grid1.N = 10 := N_1
  obtain ⟨t, ht⟩ : ∃ t : Fin cfg1.N, t.val = (i 0).val / 5000 := ⟨⟨(i 0).val / 5000, by show _ < grid1.N; rw [hN]; omega⟩, rfl⟩
  refine ⟨t, flush1_3 t, ?_⟩
  rw [mem_blk]
  obtain ⟨-, -, -, -, -, -, e0, e1⟩ := idx t
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The result array after the launch: the whole product plus bias, of the arrays as the launch finds them. -/
theorem final (c : Dev nD) : (dat1 V c).arrAt 3 cfg1.N = linAt (V c main_v34) (V c main_arg4) (V c main_v36) :=
  (dat1 V c).arrAt_eq_of_cover 3 _ (fun t _ => flushed_eq V c t) cover

end Cert.KernelIdeal.Lin1

end
-- ==== Proof.RegionLin3.lean ====
/-
  Kernel launch 3: a row-blocked matrix product plus a one-row bias.

  The grid has ten points; point t reads rows 5000·t … 5000·t + 4999 of the left operand, the whole right operand
  and the whole one-row bias, and writes the same rows of the result. Inside a block, entry (p, q) is the sum over
  k of left (p, k) · right (k, q), plus bias (0, q): the narrowing of the operands to a shorter float format is
  the identity on extended reals, and the product accumulates into zero. Row p of block t is row 5000·t + p of the
  arrays, so every block is the restriction of ONE whole-array function, and the ten blocks tile the result.
-/
import proofs.«153233_j59854664237127_1_alg».proof.Proof.Gen.KernelIdeal.Frame
import proofs.«153233_j59854664237127_1_alg».proof.Proof.Layers

set_option maxRecDepth 16384

noncomputable section

open scoped BigOperators

namespace Cert.KernelIdeal.Lin3

open Cert.KernelIdeal Cert.KernelIdeal.Gen Idealize.ShloMosaic Idealize.ShloMosaic.TcCoe Idealize.SL.Sem
open Idealize.ShloMosaic.PlainDot Idealize.ShloMosaic.ValueIdx Cert.Layers

variable (V : (c : Dev nD) → (b : Ref sig .tc) → Buf (Elt Ideal) ((c : Thread nD τ).loc b))

theorem zero_off : (![0, 0] : Fin 2 → Nat) = fun _ => 0 := funext fun a => by fin_cases a <;> rfl

/-- The block's stored value at (p, q): the sum over k of left (p, k) · right (k, q), plus the bias's entry (0, q). -/
theorem pay_apply (x0 : Vec Ideal S5000x64 .f32) (x1 : Vec Ideal S64x64 .f32) (x2 : Vec Ideal S1x64 .f32) (j : S5000x64.Idx) :
    k3_pay1 x0 x1 x2 j = (∑ k : Fin 64, x0 (lhsAt j k) * x1 (rhsAt j k)) + x2 (rowAt j) := by
  unfold k3_pay1
  refine (addf_apply _ _ j).trans ?_
  refine (congrArg₂ (· + ·) (Ideal.matmul_constant_zero_apply dot_S5000x64_S64x64_S5000x64_1_0_0_1_n_n none _ _ j) rfl).trans ?_
  rw [sum_contr_eq dot_S5000x64_S64x64_S5000x64_1_0_0_1_n_n rfl rfl (fun _ _ => rfl) (fun _ _ => rfl) (fun _ _ => rfl) (fun _ _ => rfl), broadcastTo_row_apply]
  simp only [shapeCast_self]
  rfl

/-- If the block's reads are the arrays' reads at the embedded index, the block's stored value at `j` is the
    whole-array entry at the embedded index `e`. -/
theorem lin_block (X : S50000x64.Idx → EReal) (W : S64x64.Idx → EReal) (B : S1x64.Idx → EReal)
    (x0 : Vec Ideal S5000x64 .f32) (x1 : Vec Ideal S64x64 .f32) (x2 : Vec Ideal S1x64 .f32) (j : S5000x64.Idx) (e : S50000x64.Idx)
    (r0 : ∀ k : Fin 64, x0 (lhsAt j k) = X (lhsAt e k)) (r1 : ∀ k : Fin 64, x1 (rhsAt j k) = W (rhsAt e k))
    (r2 : x2 (rowAt j) = B (rowAt e)) :
    k3_pay1 x0 x1 x2 j = linAt X W B e := by
  rw [pay_apply, r2]
  unfold linAt
  exact congrArg (· + _) (Finset.sum_congr rfl fun k _ => by rw [r0 k, r1 k])

/-- Where each window's block sits at grid point t: the left operand's and the result's at block row t, the right
    operand and the bias at the origin. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What grid point t writes back is block t of the whole-array product plus bias. -/
theorem flushed_eq (c : Dev nD) (t : Fin cfg3.N) :
    (dat3 V c).flushed 3 t = ((cfg3.win 3).blk t).view.read (Elt Ideal) (linAt (V c main_v52) (V c main_arg6) (V c main_v54)) := by
  show (cfg3.win 3).cut (grid3.coords t) ((dat3 V c).after 3 t) = _
  rw [after3_3]
  unfold out3_3
  rw [View.canon_unit_zero zero_off]
  simp only [View.ld_unit_zero (S := S5000x64) zero_off, View.ld_unit_zero (S := S64x64) zero_off, View.ld_unit_zero (S := S1x64) zero_off]
  obtain ⟨a0, a1, b0, b1, c0, c1, e0, e1⟩ := idx t
  funext j
  have hj0 : ((j : S5000x64.Idx) 0).val < 5000 := ((j : S5000x64.Idx) 0).isLt
  have hj1 : ((j : S5000x64.Idx) 1).val < 64 := ((j : S5000x64.Idx) 1).isLt
  have h0 : ∀ k : Fin 64, ((cfg3.win 0).blk t).view.emb (lhsAt (j : S5000x64.Idx) k) = lhsAt (((cfg3.win 3).blk t).view.emb j) k := fun k => by
    funext a; apply Fin.ext
    match a with
    | ⟨0, _⟩ => show win3_0.index t (0 : Fin 2) * 5000 + 1 * ((j : S5000x64.Idx) 0).val = win3_3.index t (0 : Fin 2) * 5000 + 1 * ((j : S5000x64.Idx) 0).val; omega
    | ⟨1, _⟩ => show win3_0.index t (1 : Fin 2) * 64 + 1 * k.val = k.val; omega
  have h1 : ∀ k : Fin 64, ((cfg3.win 1).blk t).view.emb (rhsAt (j : S5000x64.Idx) k) = rhsAt (((cfg3.win 3).blk t).view.emb j) k := fun k => by
    funext a; apply Fin.ext
    match a with
    | ⟨0, _⟩ => show win3_1.index t (0 : Fin 2) * 64 + 1 * k.val = k.val; omega
    | ⟨1, _⟩ => show win3_1.index t (1 : Fin 2) * 64 + 1 * ((j : S5000x64.Idx) 1).val = win3_3.index t (1 : Fin 2) * 64 + 1 * ((j : S5000x64.Idx) 1).val; omega
  have h2 : ((cfg3.win 2).blk t).view.emb (rowAt (j : S5000x64.Idx)) = rowAt (((cfg3.win 3).blk t).view.emb j) := by
    funext a; apply Fin.ext
    match a with
    | ⟨0, _⟩ => show win3_2.index t (0 : Fin 2) * 1 + 1 * 0 = 0; omega
    | ⟨1, _⟩ => show win3_2.index t (1 : Fin 2) * 64 + 1 * ((j : S5000x64.Idx) 1).val = win3_3.index t (1 : Fin 2) * 64 + 1 * ((j : S5000x64.Idx) 1).val; omega
  exact lin_block (V c main_v52) (V c main_arg6) (V c main_v54) (iblk3 V c 0 t) (iblk3 V c 1 t) (iblk3 V c 2 t) j _
    (fun k => congrArg (V c main_v52) (h0 k)) (fun k => congrArg (V c main_arg6) (h1 k)) (congrArg (V c main_v54) h2)

/-- An index of the result is in point t's block iff each coordinate is in the block's range on its axis. -/
theorem mem_blk (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v55).slice (win3_3.rect t)).set ↔ _
  rw [View.set_slice_whole, Rect.mem_set_unit]
  exact Iff.rfl

/-- Row r of the result lies in the block of point r / 5000: the ten blocks tile the array. -/
theorem cover (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  have hN : grid3.N = 10 := N_3
  obtain ⟨t, ht⟩ : ∃ t : Fin cfg3.N, t.val = (i 0).val / 5000 := ⟨⟨(i 0).val / 5000, by show _ < grid3.N; rw [hN]; omega⟩, rfl⟩
  refine ⟨t, flush3_3 t, ?_⟩
  rw [mem_blk]
  obtain ⟨-, -, -, -, -, -, e0, e1⟩ := idx t
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The result array after the launch: the whole product plus bias, of the arrays as the launch finds them. -/
theorem final (c : Dev nD) : (dat3 V c).arrAt 3 cfg3.N = linAt (V c main_v52) (V c main_arg6) (V c main_v54) :=
  (dat3 V c).arrAt_eq_of_cover 3 _ (fun t _ => flushed_eq V c t) cover

end Cert.KernelIdeal.Lin3

end
-- ==== Proof.RegionLin5.lean ====
/-
  Kernel launch 5: a row-blocked matrix product plus a one-row bias.

  The grid has ten points; point t reads rows 5000·t … 5000·t + 4999 of the left operand, the whole right operand
  and the whole one-row bias, and writes the same rows of the result. Inside a block, entry (p, q) is the sum over
  k of left (p, k) · right (k, q), plus bias (0, q): the narrowing of the operands to a shorter float format is
  the identity on extended reals, and the product accumulates into zero. Row p of block t is row 5000·t + p of the
  arrays, so every block is the restriction of ONE whole-array function, and the ten blocks tile the result.
-/
import proofs.«153233_j59854664237127_1_alg».proof.Proof.Gen.KernelIdeal.Frame
import proofs.«153233_j59854664237127_1_alg».proof.Proof.Layers

set_option maxRecDepth 16384

noncomputable section

open scoped BigOperators

namespace Cert.KernelIdeal.Lin5

open Cert.KernelIdeal Cert.KernelIdeal.Gen Idealize.ShloMosaic Idealize.ShloMosaic.TcCoe Idealize.SL.Sem
open Idealize.ShloMosaic.PlainDot Idealize.ShloMosaic.ValueIdx Cert.Layers

variable (V : (c : Dev nD) → (b : Ref sig .tc) → Buf (Elt Ideal) ((c : Thread nD τ).loc b))

theorem zero_off : (![0, 0] : Fin 2 → Nat) = fun _ => 0 := funext fun a => by fin_cases a <;> rfl

/-- The block's stored value at (p, q): the sum over k of left (p, k) · right (k, q), plus the bias's entry (0, q). -/
theorem pay_apply (x0 : Vec Ideal S5000x64 .f32) (x1 : Vec Ideal S64x64 .f32) (x2 : Vec Ideal S1x64 .f32) (j : S5000x64.Idx) :
    k5_pay1 x0 x1 x2 j = (∑ k : Fin 64, x0 (lhsAt j k) * x1 (rhsAt j k)) + x2 (rowAt j) := by
  unfold k5_pay1
  refine (addf_apply _ _ j).trans ?_
  refine (congrArg₂ (· + ·) (Ideal.matmul_constant_zero_apply dot_S5000x64_S64x64_S5000x64_1_0_0_1_n_n none _ _ j) rfl).trans ?_
  rw [sum_contr_eq dot_S5000x64_S64x64_S5000x64_1_0_0_1_n_n rfl rfl (fun _ _ => rfl) (fun _ _ => rfl) (fun _ _ => rfl) (fun _ _ => rfl), broadcastTo_row_apply]
  simp only [shapeCast_self]
  rfl

/-- If the block's reads are the arrays' reads at the embedded index, the block's stored value at `j` is the
    whole-array entry at the embedded index `e`. -/
theorem lin_block (X : S50000x64.Idx → EReal) (W : S64x64.Idx → EReal) (B : S1x64.Idx → EReal)
    (x0 : Vec Ideal S5000x64 .f32) (x1 : Vec Ideal S64x64 .f32) (x2 : Vec Ideal S1x64 .f32) (j : S5000x64.Idx) (e : S50000x64.Idx)
    (r0 : ∀ k : Fin 64, x0 (lhsAt j k) = X (lhsAt e k)) (r1 : ∀ k : Fin 64, x1 (rhsAt j k) = W (rhsAt e k))
    (r2 : x2 (rowAt j) = B (rowAt e)) :
    k5_pay1 x0 x1 x2 j = linAt X W B e := by
  rw [pay_apply, r2]
  unfold linAt
  exact congrArg (· + _) (Finset.sum_congr rfl fun k _ => by rw [r0 k, r1 k])

/-- Where each window's block sits at grid point t: the left operand's and the result's at block row t, the right
    operand and the bias at the origin. -/
theorem idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What grid point t writes back is block t of the whole-array product plus bias. -/
theorem flushed_eq (c : Dev nD) (t : Fin cfg5.N) :
    (dat5 V c).flushed 3 t = ((cfg5.win 3).blk t).view.read (Elt Ideal) (linAt (V c main_v70) (V c main_arg8) (V c main_v72)) := by
  show (cfg5.win 3).cut (grid5.coords t) ((dat5 V c).after 3 t) = _
  rw [after5_3]
  unfold out5_3
  rw [View.canon_unit_zero zero_off]
  simp only [View.ld_unit_zero (S := S5000x64) zero_off, View.ld_unit_zero (S := S64x64) zero_off, View.ld_unit_zero (S := S1x64) zero_off]
  obtain ⟨a0, a1, b0, b1, c0, c1, e0, e1⟩ := idx t
  funext j
  have hj0 : ((j : S5000x64.Idx) 0).val < 5000 := ((j : S5000x64.Idx) 0).isLt
  have hj1 : ((j : S5000x64.Idx) 1).val < 64 := ((j : S5000x64.Idx) 1).isLt
  have h0 : ∀ k : Fin 64, ((cfg5.win 0).blk t).view.emb (lhsAt (j : S5000x64.Idx) k) = lhsAt (((cfg5.win 3).blk t).view.emb j) k := fun k => by
    funext a; apply Fin.ext
    match a with
    | ⟨0, _⟩ => show win5_0.index t (0 : Fin 2) * 5000 + 1 * ((j : S5000x64.Idx) 0).val = win5_3.index t (0 : Fin 2) * 5000 + 1 * ((j : S5000x64.Idx) 0).val; omega
    | ⟨1, _⟩ => show win5_0.index t (1 : Fin 2) * 64 + 1 * k.val = k.val; omega
  have h1 : ∀ k : Fin 64, ((cfg5.win 1).blk t).view.emb (rhsAt (j : S5000x64.Idx) k) = rhsAt (((cfg5.win 3).blk t).view.emb j) k := fun k => by
    funext a; apply Fin.ext
    match a with
    | ⟨0, _⟩ => show win5_1.index t (0 : Fin 2) * 64 + 1 * k.val = k.val; omega
    | ⟨1, _⟩ => show win5_1.index t (1 : Fin 2) * 64 + 1 * ((j : S5000x64.Idx) 1).val = win5_3.index t (1 : Fin 2) * 64 + 1 * ((j : S5000x64.Idx) 1).val; omega
  have h2 : ((cfg5.win 2).blk t).view.emb (rowAt (j : S5000x64.Idx)) = rowAt (((cfg5.win 3).blk t).view.emb j) := by
    funext a; apply Fin.ext
    match a with
    | ⟨0, _⟩ => show win5_2.index t (0 : Fin 2) * 1 + 1 * 0 = 0; omega
    | ⟨1, _⟩ => show win5_2.index t (1 : Fin 2) * 64 + 1 * ((j : S5000x64.Idx) 1).val = win5_3.index t (1 : Fin 2) * 64 + 1 * ((j : S5000x64.Idx) 1).val; omega
  exact lin_block (V c main_v70) (V c main_arg8) (V c main_v72) (iblk5 V c 0 t) (iblk5 V c 1 t) (iblk5 V c 2 t) j _
    (fun k => congrArg (V c main_v70) (h0 k)) (fun k => congrArg (V c main_arg8) (h1 k)) (congrArg (V c main_v72) h2)

/-- An index of the result is in point t's block iff each coordinate is in the block's range on its axis. -/
theorem mem_blk (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v73).slice (win5_3.rect t)).set ↔ _
  rw [View.set_slice_whole, Rect.mem_set_unit]
  exact Iff.rfl

/-- Row r of the result lies in the block of point r / 5000: the ten blocks tile the array. -/
theorem cover (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  have hN : grid5.N = 10 := N_5
  obtain ⟨t, ht⟩ : ∃ t : Fin cfg5.N, t.val = (i 0).val / 5000 := ⟨⟨(i 0).val / 5000, by show _ < grid5.N; rw [hN]; omega⟩, rfl⟩
  refine ⟨t, flush5_3 t, ?_⟩
  rw [mem_blk]
  obtain ⟨-, -, -, -, -, -, e0, e1⟩ := idx t
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- The result array after the launch: the whole product plus bias, of the arrays as the launch finds them. -/
theorem final (c : Dev nD) : (dat5 V c).arrAt 3 cfg5.N = linAt (V c main_v70) (V c main_arg8) (V c main_v72) :=
  (dat5 V c).arrAt_eq_of_cover 3 _ (fun t _ => flushed_eq V c t) cover

end Cert.KernelIdeal.Lin5

end
-- ==== Proof.RegionFin2.lean ====
/-
  Kernel launch 2: finishing a graph-convolution layer, row block by row block.

  The grid has ten points; point t reads rows 5000·t … 5000·t + 4999 of the aggregated messages, of the nodes' own
  transformed features and of the column of per-node factors, and the whole one-row bias, and writes the same rows
  of the result. Entry (p, q) of a block is aggregated (p, q) + own (p, q) · factor (p, 0) + bias (0, q), floored at
  zero. Row p of block t is row 5000·t + p of the arrays, so every block is the restriction of ONE whole-array
  function, and the ten blocks tile the result.
-/
import proofs.«153233_j59854664237127_1_alg».proof.Proof.Gen.KernelIdeal.Frame
import proofs.«153233_j59854664237127_1_alg».proof.Proof.Layers

set_option maxRecDepth 16384

noncomputable section

namespace Cert.KernelIdeal.Fin2

open Cert.KernelIdeal Cert.KernelIdeal.Gen Idealize.ShloMosaic Idealize.ShloMosaic.TcCoe Idealize.SL.Sem
open Idealize.ShloMosaic.PlainDot Idealize.ShloMosaic.ValueIdx Cert.Layers

variable (V : (c : Dev nD) → (b : Ref sig .tc) → Buf (Elt Ideal) ((c : Thread nD τ).loc b))

theorem zero_off : (![0, 0] : Fin 2 → Nat) = fun _ => 0 := funext fun a => by fin_cases a <;> rfl

/-- The block's stored value at (p, q). -/
theorem pay_apply (x0 x1 : Vec Ideal S5000x64 .f32) (x2 : Vec Ideal S5000x1 .f32) (x3 : Vec Ideal S1x64 .f32) (j : S5000x64.Idx) :
    k2_pay1 x0 x1 x2 x3 j = max ((x0 j + x1 j * x2 (colAt j)) + x3 (rowAt j)) (Ideal.ofBits .f32 0x00000000#32) := by
  unfold k2_pay1
  show max ((shapeCast S5000x64 x0 _ j + shapeCast S5000x64 x1 _ j * broadcastTo S5000x64 (shapeCast S5000x1 x2 _) _ j) + broadcastTo S5000x64 (shapeCast S1x64 x3 _) _ j) (Ideal.ofBits .f32 0x00000000#32) = _
  rw [shapeCast_self, shapeCast_self, broadcastTo_col_apply, broadcastTo_row_apply, shapeCast_self, shapeCast_self]

/-- If the block's reads are the arrays' reads at the embedded index, the block's stored value at `j` is the
    whole-array entry at the embedded index `e`. -/
theorem fin_block (A H : S50000x64.Idx → EReal) (d : S50000x1.Idx → EReal) (b : S1x64.Idx → EReal)
    (x0 x1 : Vec Ideal S5000x64 .f32) (x2 : Vec Ideal S5000x1 .f32) (x3 : Vec Ideal S1x64 .f32) (j : S5000x64.Idx) (e : S50000x64.Idx)
    (r0 : x0 j = A e) (r1 : x1 j = H e) (r2 : x2 (colAt j) = d (colAt e)) (r3 : x3 (rowAt j) = b (rowAt e)) :
    k2_pay1 x0 x1 x2 x3 j = floorAt (Ideal.ofBits .f32 0x00000000#32) (finAt A H d b) e := by
  rw [pay_apply, r0, r1, r2, r3]; rfl

/-- Where each window's block sits at grid point t: the three row-blocked inputs and the result at block row t,
    the bias at the origin. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What grid point t writes back is block t of the whole-array finishing function. -/
theorem flushed_eq (c : Dev nD) (t : Fin cfg2.N) :
    (dat2 V c).flushed 4 t = ((cfg2.win 4).blk t).view.read (Elt Ideal) (floorAt (Ideal.ofBits .f32 0x00000000#32) (finAt (M := 50000) (N := 64) (V c main_v50) (V c main_v37) (V c main_v32) (V c main_v51))) := by
  show (cfg2.win 4).cut (grid2.coords t) ((dat2 V c).after 4 t) = _
  rw [after2_4]
  unfold out2_4
  rw [View.canon_unit_zero zero_off]
  simp only [View.ld_unit_zero (S := S5000x64) zero_off, View.ld_unit_zero (S := S5000x1) zero_off, View.ld_unit_zero (S := S1x64) zero_off]
  obtain ⟨a0, a1, b0, b1, c0, c1, d0, d1, e0, e1⟩ := idx t
  funext j
  have hj0 : ((j : S5000x64.Idx) 0).val < 5000 := ((j : S5000x64.Idx) 0).isLt
  have hj1 : ((j : S5000x64.Idx) 1).val < 64 := ((j : S5000x64.Idx) 1).isLt
  have h0 : ((cfg2.win 0).blk t).view.emb (j : S5000x64.Idx) = ((cfg2.win 4).blk t).view.emb j := by
    funext a; apply Fin.ext
    match a with
    | ⟨0, _⟩ => show win2_0.index t (0 : Fin 2) * 5000 + 1 * ((j : S5000x64.Idx) 0).val = win2_4.index t (0 : Fin 2) * 5000 + 1 * ((j : S5000x64.Idx) 0).val; omega
    | ⟨1, _⟩ => show win2_0.index t (1 : Fin 2) * 64 + 1 * ((j : S5000x64.Idx) 1).val = win2_4.index t (1 : Fin 2) * 64 + 1 * ((j : S5000x64.Idx) 1).val; omega
  have h1 : ((cfg2.win 1).blk t).view.emb (j : S5000x64.Idx) = ((cfg2.win 4).blk t).view.emb j := by
    funext a; apply Fin.ext
    match a with
    | ⟨0, _⟩ => show win2_1.index t (0 : Fin 2) * 5000 + 1 * ((j : S5000x64.Idx) 0).val = win2_4.index t (0 : Fin 2) * 5000 + 1 * ((j : S5000x64.Idx) 0).val; omega
    | ⟨1, _⟩ => show win2_1.index t (1 : Fin 2) * 64 + 1 * ((j : S5000x64.Idx) 1).val = win2_4.index t (1 : Fin 2) * 64 + 1 * ((j : S5000x64.Idx) 1).val; omega
  have h2 : ((cfg2.win 2).blk t).view.emb (colAt (j : S5000x64.Idx)) = colAt (((cfg2.win 4).blk t).view.emb j) := by
    funext a; apply Fin.ext
    match a with
    | ⟨0, _⟩ => show win2_2.index t (0 : Fin 2) * 5000 + 1 * ((j : S5000x64.Idx) 0).val = win2_4.index t (0 : Fin 2) * 5000 + 1 * ((j : S5000x64.Idx) 0).val; omega
    | ⟨1, _⟩ => show win2_2.index t (1 : Fin 2) * 1 + 1 * 0 = 0; omega
  have h3 : ((cfg2.win 3).blk t).view.emb (rowAt (j : S5000x64.Idx)) = rowAt (((cfg2.win 4).blk t).view.emb j) := by
    funext a; apply Fin.ext
    match a with
    | ⟨0, _⟩ => show win2_3.index t (0 : Fin 2) * 1 + 1 * 0 = 0; omega
    | ⟨1, _⟩ => show win2_3.index t (1 : Fin 2) * 64 + 1 * ((j : S5000x64.Idx) 1).val = win2_4.index t (1 : Fin 2) * 64 + 1 * ((j : S5000x64.Idx) 1).val; omega
  show k2_pay1 (iblk2 V c 0 t) (iblk2 V c 1 t) (iblk2 V c 2 t) (iblk2 V c 3 t) (j : S5000x64.Idx) = (floorAt (Ideal.ofBits .f32 0x00000000#32) (finAt (M := 50000) (N := 64) (V c main_v50) (V c main_v37) (V c main_v32) (V c main_v51))) (((cfg2.win 4).blk t).view.emb j)
  exact fin_block (V c main_v50) (V c main_v37) (V c main_v32) (V c main_v51) (iblk2 V c 0 t) (iblk2 V c 1 t) (iblk2 V c 2 t) (iblk2 V c 3 t) j _
    (congrArg (V c main_v50) h0) (congrArg (V c main_v37) h1) (congrArg (V c main_v32) h2) (congrArg (V c main_v51) h3)

/-- An index of the result is in point t's block iff each coordinate is in the block's range on its axis. -/
theorem mem_blk (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v52).slice (win2_4.rect t)).set ↔ _
  rw [View.set_slice_whole, Rect.mem_set_unit]
  exact Iff.rfl

/-- Row r of the result lies in the block of point r / 5000: the ten blocks tile the array. -/
theorem cover (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  have hN : grid2.N = 10 := N_2
  obtain ⟨t, ht⟩ : ∃ t : Fin cfg2.N, t.val = (i 0).val / 5000 := ⟨⟨(i 0).val / 5000, by show _ < grid2.N; rw [hN]; omega⟩, rfl⟩
  refine ⟨t, flush2_4 t, ?_⟩
  rw [mem_blk]
  obtain ⟨-, -, -, -, -, -, -, -, e0, e1⟩ := idx t
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The result array after the launch: the whole finishing function of the arrays as the launch finds them. -/
theorem final (c : Dev nD) : (dat2 V c).arrAt 4 cfg2.N = floorAt (Ideal.ofBits .f32 0x00000000#32) (finAt (M := 50000) (N := 64) (V c main_v50) (V c main_v37) (V c main_v32) (V c main_v51)) :=
  (dat2 V c).arrAt_eq_of_cover 4 _ (fun t _ => flushed_eq V c t) cover

end Cert.KernelIdeal.Fin2

end
-- ==== Proof.RegionFin4.lean ====
/-
  Kernel launch 4: finishing a graph-convolution layer, row block by row block.

  The grid has ten points; point t reads rows 5000·t … 5000·t + 4999 of the aggregated messages, of the nodes' own
  transformed features and of the column of per-node factors, and the whole one-row bias, and writes the same rows
  of the result. Entry (p, q) of a block is aggregated (p, q) + own (p, q) · factor (p, 0) + bias (0, q), floored at
  zero. Row p of block t is row 5000·t + p of the arrays, so every block is the restriction of ONE whole-array
  function, and the ten blocks tile the result.
-/
import proofs.«153233_j59854664237127_1_alg».proof.Proof.Gen.KernelIdeal.Frame
import proofs.«153233_j59854664237127_1_alg».proof.Proof.Layers

set_option maxRecDepth 16384

noncomputable section

namespace Cert.KernelIdeal.Fin4

open Cert.KernelIdeal Cert.KernelIdeal.Gen Idealize.ShloMosaic Idealize.ShloMosaic.TcCoe Idealize.SL.Sem
open Idealize.ShloMosaic.PlainDot Idealize.ShloMosaic.ValueIdx Cert.Layers

variable (V : (c : Dev nD) → (b : Ref sig .tc) → Buf (Elt Ideal) ((c : Thread nD τ).loc b))

theorem zero_off : (![0, 0] : Fin 2 → Nat) = fun _ => 0 := funext fun a => by fin_cases a <;> rfl

/-- The block's stored value at (p, q). -/
theorem pay_apply (x0 x1 : Vec Ideal S5000x64 .f32) (x2 : Vec Ideal S5000x1 .f32) (x3 : Vec Ideal S1x64 .f32) (j : S5000x64.Idx) :
    k4_pay1 x0 x1 x2 x3 j = max ((x0 j + x1 j * x2 (colAt j)) + x3 (rowAt j)) (Ideal.ofBits .f32 0x00000000#32) := by
  unfold k4_pay1
  show max ((shapeCast S5000x64 x0 _ j + shapeCast S5000x64 x1 _ j * broadcastTo S5000x64 (shapeCast S5000x1 x2 _) _ j) + broadcastTo S5000x64 (shapeCast S1x64 x3 _) _ j) (Ideal.ofBits .f32 0x00000000#32) = _
  rw [shapeCast_self, shapeCast_self, broadcastTo_col_apply, broadcastTo_row_apply, shapeCast_self, shapeCast_self]

/-- If the block's reads are the arrays' reads at the embedded index, the block's stored value at `j` is the
    whole-array entry at the embedded index `e`. -/
theorem fin_block (A H : S50000x64.Idx → EReal) (d : S50000x1.Idx → EReal) (b : S1x64.Idx → EReal)
    (x0 x1 : Vec Ideal S5000x64 .f32) (x2 : Vec Ideal S5000x1 .f32) (x3 : Vec Ideal S1x64 .f32) (j : S5000x64.Idx) (e : S50000x64.Idx)
    (r0 : x0 j = A e) (r1 : x1 j = H e) (r2 : x2 (colAt j) = d (colAt e)) (r3 : x3 (rowAt j) = b (rowAt e)) :
    k4_pay1 x0 x1 x2 x3 j = floorAt (Ideal.ofBits .f32 0x00000000#32) (finAt A H d b) e := by
  rw [pay_apply, r0, r1, r2, r3]; rfl

/-- Where each window's block sits at grid point t: the three row-blocked inputs and the result at block row t,
    the bias at the origin. -/
theorem idx : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What grid point t writes back is block t of the whole-array finishing function. -/
theorem flushed_eq (c : Dev nD) (t : Fin cfg4.N) :
    (dat4 V c).flushed 4 t = ((cfg4.win 4).blk t).view.read (Elt Ideal) (floorAt (Ideal.ofBits .f32 0x00000000#32) (finAt (M := 50000) (N := 64) (V c main_v68) (V c main_v55) (V c main_v32) (V c main_v69))) := by
  show (cfg4.win 4).cut (grid4.coords t) ((dat4 V c).after 4 t) = _
  rw [after4_4]
  unfold out4_4
  rw [View.canon_unit_zero zero_off]
  simp only [View.ld_unit_zero (S := S5000x64) zero_off, View.ld_unit_zero (S := S5000x1) zero_off, View.ld_unit_zero (S := S1x64) zero_off]
  obtain ⟨a0, a1, b0, b1, c0, c1, d0, d1, e0, e1⟩ := idx t
  funext j
  have hj0 : ((j : S5000x64.Idx) 0).val < 5000 := ((j : S5000x64.Idx) 0).isLt
  have hj1 : ((j : S5000x64.Idx) 1).val < 64 := ((j : S5000x64.Idx) 1).isLt
  have h0 : ((cfg4.win 0).blk t).view.emb (j : S5000x64.Idx) = ((cfg4.win 4).blk t).view.emb j := by
    funext a; apply Fin.ext
    match a with
    | ⟨0, _⟩ => show win4_0.index t (0 : Fin 2) * 5000 + 1 * ((j : S5000x64.Idx) 0).val = win4_4.index t (0 : Fin 2) * 5000 + 1 * ((j : S5000x64.Idx) 0).val; omega
    | ⟨1, _⟩ => show win4_0.index t (1 : Fin 2) * 64 + 1 * ((j : S5000x64.Idx) 1).val = win4_4.index t (1 : Fin 2) * 64 + 1 * ((j : S5000x64.Idx) 1).val; omega
  have h1 : ((cfg4.win 1).blk t).view.emb (j : S5000x64.Idx) = ((cfg4.win 4).blk t).view.emb j := by
    funext a; apply Fin.ext
    match a with
    | ⟨0, _⟩ => show win4_1.index t (0 : Fin 2) * 5000 + 1 * ((j : S5000x64.Idx) 0).val = win4_4.index t (0 : Fin 2) * 5000 + 1 * ((j : S5000x64.Idx) 0).val; omega
    | ⟨1, _⟩ => show win4_1.index t (1 : Fin 2) * 64 + 1 * ((j : S5000x64.Idx) 1).val = win4_4.index t (1 : Fin 2) * 64 + 1 * ((j : S5000x64.Idx) 1).val; omega
  have h2 : ((cfg4.win 2).blk t).view.emb (colAt (j : S5000x64.Idx)) = colAt (((cfg4.win 4).blk t).view.emb j) := by
    funext a; apply Fin.ext
    match a with
    | ⟨0, _⟩ => show win4_2.index t (0 : Fin 2) * 5000 + 1 * ((j : S5000x64.Idx) 0).val = win4_4.index t (0 : Fin 2) * 5000 + 1 * ((j : S5000x64.Idx) 0).val; omega
    | ⟨1, _⟩ => show win4_2.index t (1 : Fin 2) * 1 + 1 * 0 = 0; omega
  have h3 : ((cfg4.win 3).blk t).view.emb (rowAt (j : S5000x64.Idx)) = rowAt (((cfg4.win 4).blk t).view.emb j) := by
    funext a; apply Fin.ext
    match a with
    | ⟨0, _⟩ => show win4_3.index t (0 : Fin 2) * 1 + 1 * 0 = 0; omega
    | ⟨1, _⟩ => show win4_3.index t (1 : Fin 2) * 64 + 1 * ((j : S5000x64.Idx) 1).val = win4_4.index t (1 : Fin 2) * 64 + 1 * ((j : S5000x64.Idx) 1).val; omega
  show k4_pay1 (iblk4 V c 0 t) (iblk4 V c 1 t) (iblk4 V c 2 t) (iblk4 V c 3 t) (j : S5000x64.Idx) = (floorAt (Ideal.ofBits .f32 0x00000000#32) (finAt (M := 50000) (N := 64) (V c main_v68) (V c main_v55) (V c main_v32) (V c main_v69))) (((cfg4.win 4).blk t).view.emb j)
  exact fin_block (V c main_v68) (V c main_v55) (V c main_v32) (V c main_v69) (iblk4 V c 0 t) (iblk4 V c 1 t) (iblk4 V c 2 t) (iblk4 V c 3 t) j _
    (congrArg (V c main_v68) h0) (congrArg (V c main_v55) h1) (congrArg (V c main_v32) h2) (congrArg (V c main_v69) h3)

/-- An index of the result is in point t's block iff each coordinate is in the block's range on its axis. -/
theorem mem_blk (t : Fin cfg4.N) (i : S50000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v70).slice (win4_4.rect t)).set ↔ _
  rw [View.set_slice_whole, Rect.mem_set_unit]
  exact Iff.rfl

/-- Row r of the result lies in the block of point r / 5000: the ten blocks tile the array. -/
theorem cover (i : S50000x64.Idx) : ∃ t : Fin cfg4.N, (cfg4.win 4).flush t = true ∧ i ∈ ((cfg4.win 4).blk t).view.set := by
  have hi0 : (i 0).val < 50000 := (i 0).isLt
  have hi1 : (i 1).val < 64 := (i 1).isLt
  have hN : grid4.N = 10 := N_4
  obtain ⟨t, ht⟩ : ∃ t : Fin cfg4.N, t.val = (i 0).val / 5000 := ⟨⟨(i 0).val / 5000, by show _ < grid4.N; rw [hN]; omega⟩, rfl⟩
  refine ⟨t, flush4_4 t, ?_⟩
  rw [mem_blk]
  obtain ⟨-, -, -, -, -, -, -, -, e0, e1⟩ := idx t
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 64 ≤ (i 1).val ∧ (i 1).val < win4_4.index t (1 : Fin 2) * 64 + 64; omega

/-- The result array after the launch: the whole finishing function of the arrays as the launch finds them. -/
theorem final (c : Dev nD) : (dat4 V c).arrAt 4 cfg4.N = floorAt (Ideal.ofBits .f32 0x00000000#32) (finAt (M := 50000) (N := 64) (V c main_v68) (V c main_v55) (V c main_v32) (V c main_v69)) :=
  (dat4 V c).arrAt_eq_of_cover 4 _ (fun t _ => flushed_eq V c t) cover

end Cert.KernelIdeal.Fin4

end
-- ==== Proof.RegionFin6.lean ====
/-
  Kernel launch 6: finishing a graph-convolution layer, row block by row block.

  The grid has ten points; point t reads rows 5000·t … 5000·t + 4999 of the aggregated messages, of the nodes' own
  transformed features and of the column of per-node factors, and the whole one-row bias, and writes the same rows
  of the result. Entry (p, q) of a block is aggregated (p, q) + own (p, q) · factor (p, 0) + bias (0, q). Row p of block t is row 5000·t + p of the arrays, so every block is the restriction of ONE whole-array
  function, and the ten blocks tile the result.
-/
import proofs.«153233_j59854664237127_1_alg».proof.Proof.Gen.KernelIdeal.Frame
import proofs.«153233_j59854664237127_1_alg».proof.Proof.Layers

set_option maxRecDepth 16384

noncomputable section

namespace Cert.KernelIdeal.Fin6

open Cert.KernelIdeal Cert.KernelIdeal.Gen Idealize.ShloMosaic Idealize.ShloMosaic.TcCoe Idealize.SL.Sem
open Idealize.ShloMosaic.PlainDot Idealize.ShloMosaic.ValueIdx Cert.Layers

variable (V : (c : Dev nD) → (b : Ref sig .tc) → Buf (Elt Ideal) ((c : Thread nD τ).loc b))

theorem zero_off : (![0, 0] : Fin 2 → Nat) = fun _ => 0 := funext fun a => by fin_cases a <;> rfl

/-- The block's stored value at (p, q). -/
theorem pay_apply (x0 x1 : Vec Ideal S5000x64 .f32) (x2 : Vec Ideal S5000x1 .f32) (x3 : Vec Ideal S1x64 .f32) (j : S5000x64.Idx) :
    k6_pay1 x0 x1 x2 x3 j = (x0 j + x1 j * x2 (colAt j)) + x3 (rowAt j) := by
  unfold k6_pay1
  show (shapeCast S5000x64 x0 _ j + shapeCast S5000x64 x1 _ j * broadcastTo S5000x64 (shapeCast S5000x1 x2 _) _ j) + broadcastTo S5000x64 (shapeCast S1x64 x3 _) _ j = _
  rw [shapeCast_self, shapeCast_self, broadcastTo_col_apply, broadcastTo_row_apply, shapeCast_self, shapeCast_self]

/-- If the block's reads are the arrays' reads at the embedded index, the block's stored value at `j` is the
    whole-array entry at the embedded index `e`. -/
theorem fin_block (A H : S50000x64.Idx → EReal) (d : S50000x1.Idx → EReal) (b : S1x64.Idx → EReal)
    (x0 x1 : Vec Ideal S5000x64 .f32) (x2 : Vec Ideal S5000x1 .f32) (x3 : Vec Ideal S1x64 .f32) (j : S5000x64.Idx) (e : S50000x64.Idx)
    (r0 : x0 j = A e) (r1 : x1 j = H e) (r2 : x2 (colAt j) = d (colAt e)) (r3 : x3 (rowAt j) = b (rowAt e)) :
    k6_pay1 x0 x1 x2 x3 j = finAt A H d b e := by
  rw [pay_apply, r0, r1, r2, r3]; rfl

/-- Where each window's block sits at grid point t: the three row-blocked inputs and the result at block row t,
    the bias at the origin. -/
theorem idx : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- What grid point t writes back is block t of the whole-array finishing function. -/
theorem flushed_eq (c : Dev nD) (t : Fin cfg6.N) :
    (dat6 V c).flushed 4 t = ((cfg6.win 4).blk t).view.read (Elt Ideal) (finAt (M := 50000) (N := 64) (V c main_v86) (V c main_v73) (V c main_v32) (V c main_v87)) := by
  show (cfg6.win 4).cut (grid6.coords t) ((dat6 V c).after 4 t) = _
  rw [after6_4]
  unfold out6_4
  rw [View.canon_unit_zero zero_off]
  simp only [View.ld_unit_zero (S := S5000x64) zero_off, View.ld_unit_zero (S := S5000x1) zero_off, View.ld_unit_zero (S := S1x64) zero_off]
  obtain ⟨a0, a1, b0, b1, c0, c1, d0, d1, e0, e1⟩ := idx t
  funext j
  have hj0 : ((j : S5000x64.Idx) 0).val < 5000 := ((j : S5000x64.Idx) 0).isLt
  have hj1 : ((j : S5000x64.Idx) 1).val < 64 := ((j : S5000x64.Idx) 1).isLt
  have h0 : ((cfg6.win 0).blk t).view.emb (j : S5000x64.Idx) = ((cfg6.win 4).blk t).view.emb j := by
    funext a; apply Fin.ext
    match a with
    | ⟨0, _⟩ => show win6_0.index t (0 : Fin 2) * 5000 + 1 * ((j : S5000x64.Idx) 0).val = win6_4.index t (0 : Fin 2) * 5000 + 1 * ((j : S5000x64.Idx) 0).val; omega
    | ⟨1, _⟩ => show win6_0.index t (1 : Fin 2) * 64 + 1 * ((j : S5000x64.Idx) 1).val = win6_4.index t (1 : Fin 2) * 64 + 1 * ((j : S5000x64.Idx) 1).val; omega
  have h1 : ((cfg6.win 1).blk t).view.emb (j : S5000x64.Idx) = ((cfg6.win 4).blk t).view.emb j := by
    funext a; apply Fin.ext
    match a with
    | ⟨0, _⟩ => show win6_1.index t (0 : Fin 2) * 5000 + 1 * ((j : S5000x64.Idx) 0).val = win6_4.index t (0 : Fin 2) * 5000 + 1 * ((j : S5000x64.Idx) 0).val; omega
    | ⟨1, _⟩ => show win6_1.index t (1 : Fin 2) * 64 + 1 * ((j : S5000x64.Idx) 1).val = win6_4.index t (1 : Fin 2) * 64 + 1 * ((j : S5000x64.Idx) 1).val; omega
  have h2 : ((cfg6.win 2).blk t).view.emb (colAt (j : S5000x64.Idx)) = colAt (((cfg6.win 4).blk t).view.emb j) := by
    funext a; apply Fin.ext
    match a with
    | ⟨0, _⟩ => show win6_2.index t (0 : Fin 2) * 5000 + 1 * ((j : S5000x64.Idx) 0).val = win6_4.index t (0 : Fin 2) * 5000 + 1 * ((j : S5000x64.Idx) 0).val; omega
    | ⟨1, _⟩ => show win6_2.index t (1 : Fin 2) * 1 + 1 * 0 = 0; omega
  have h3 : ((cfg6.win 3).blk t).view.emb (rowAt (j : S5000x64.Idx)) = rowAt (((cfg6.win 4).blk t).view.emb j) := by
    funext a; apply Fin.ext
    match a with
    | ⟨0, _⟩ => show win6_3.index t (0 : Fin 2) * 1 + 1 * 0 = 0; omega
    | ⟨1, _⟩ => show win6_3.index t (1 : Fin 2) * 64 + 1 * ((j : S5000x64.Idx) 1).val = win6_4.index t (1 : Fin 2) * 64 + 1 * ((j : S5000x64.Idx) 1).val; omega
  show k6_pay1 (iblk6 V c 0 t) (iblk6 V c 1 t) (iblk6 V c 2 t) (iblk6 V c 3 t) (j : S5000x64.Idx) = (finAt (M := 50000) (N := 64) (V c main_v86) (V c main_v73) (V c main_v32) (V c main_v87)) (((cfg6.win 4).blk t).view.emb j)
  exact fin_block (V c main_v86) (V c main_v73) (V c main_v32) (V c main_v87) (iblk6 V c 0 t) (iblk6 V c 1 t) (iblk6 V c 2 t) (iblk6 V c 3 t) j _
    (congrArg (V c main_v86) h0) (congrArg (V c main_v73) h1) (congrArg (V c main_v32) h2) (congrArg (V c main_v87) h3)

/-- An index of the result is in point t's block iff each coordinate is in the block's range on its axis. -/
theorem mem_blk (t : Fin cfg6.N) (i : S50000x64.Idx) :
    i ∈ ((cfg6.win 4).blk t).view.set ↔ ∀ a : Fin 2, win6_4.index t a * S5000x64.size a ≤ (i a).val ∧ (i a).val < win6_4.index t a * S5000x64.size a + S5000x64.size a := by
  show i ∈ ((View.whole main_v88).slice (win6_4.rect t)).set ↔ _
  rw [View.set_slice_whole, Rect.mem_set_unit]
  exact Iff.rfl

/-- Row r of the result lies in the block of point r / 5000: the ten blocks tile the array. -/
theorem cover (i : S50000x64.Idx) : ∃ t : Fin cfg6.N, (cfg6.win 4).flush t = true ∧ i ∈ ((cfg6.win 4).blk t).view.set := by
  have hi0 : (i 0).val < 50000 := (i 0).isLt
  have hi1 : (i 1).val < 64 := (i 1).isLt
  have hN : grid6.N = 10 := N_6
  obtain ⟨t, ht⟩ : ∃ t : Fin cfg6.N, t.val = (i 0).val / 5000 := ⟨⟨(i 0).val / 5000, by show _ < grid6.N; rw [hN]; omega⟩, rfl⟩
  refine ⟨t, flush6_4 t, ?_⟩
  rw [mem_blk]
  obtain ⟨-, -, -, -, -, -, -, -, e0, e1⟩ := idx t
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 64 ≤ (i 1).val ∧ (i 1).val < win6_4.index t (1 : Fin 2) * 64 + 64; omega

/-- The result array after the launch: the whole finishing function of the arrays as the launch finds them. -/
theorem final (c : Dev nD) : (dat6 V c).arrAt 4 cfg6.N = finAt (M := 50000) (N := 64) (V c main_v86) (V c main_v73) (V c main_v32) (V c main_v87) :=
  (dat6 V c).arrAt_eq_of_cover 4 _ (fun t _ => flushed_eq V c t) cover

end Cert.KernelIdeal.Fin6

end
-- ==== Proof.GcnSpec.lean ====
/-
  The graph-convolution network, stage by stage, as whole-array functions of its inputs.

  Inputs: node features x [50000, 128], an edge list E [2, 800000] (row 0 the sources, row 1 the destinations),
  a linear layer (W₀ [128, 64], b₀ [64]) and three convolution layers (Wᵢ [64, 64], bᵢ [64]).

  A node's degree is one plus the number of edges whose (wrapped) destination it is; dinv is its inverse square
  root; an edge's weight is dinv at its source times dinv at its destination. A convolution of features H with
  (W, b): hw = H·W; every edge sends hw at its source, scaled by its weight, to its destination, where the messages
  are summed; to that sum is added hw scaled row by row by dinv², and the bias. The network is
  conv₃ (relu (conv₂ (relu (conv₁ (x·W₀ + b₀))))).

  Gathering rows at an index array and summing rows into an index array are kept as the two opaque operations the
  programs name: nothing is assumed of the edge list, and nothing needs to be.
-/
import proofs.«153233_j59854664237127_1_alg».proof.Proof.Gen.ReferenceIdeal
import proofs.«153233_j59854664237127_1_alg».proof.Proof.Layers
import Idealize.ShloMosaic.Lib.ValueIdx
import Idealize.ShloMosaic.PureOps.Ideal.Laws

set_option maxRecDepth 16384

noncomputable section

open scoped BigOperators

namespace Cert.Gcn

open Cert.ReferenceIdeal Cert.ReferenceIdeal.Gen Idealize.ShloMosaic Idealize.ShloMosaic.PlainDot Idealize.ShloMosaic.ValueIdx Cert.Layers

/-- Row 0 of the edge list: the sources. -/
def srcRaw (E : IVec S2x800000 32) : IVec S800000 32 :=
  shapeCast S800000 (extractStridedSlice S1x800000 ![0, 0] E slices_S2x800000_S1x800000_0_0) shapeCasts_S1x800000_S800000

/-- Row 1 of the edge list: the destinations. -/
def dstRaw (E : IVec S2x800000 32) : IVec S800000 32 :=
  shapeCast S800000 (extractStridedSlice S1x800000 ![1, 0] E slices_S2x800000_S1x800000_1_0) shapeCasts_S1x800000_S800000

/-- A negative node index counts from the end. -/
def wrap (I : IVec S800000 32) : IVec S800000 32 :=
  select (cmpi .slt I (broadcastInDim S800000 ![] bcast_S_S800000 (constantI S_ 32 0#32)))
    (addi I (broadcastInDim S800000 ![] bcast_S_S800000 (constantI S_ 32 50000#32))) I

/-- An index vector as a one-column index array. -/
def col (I : IVec S800000 32) : IVec S800000x1 32 :=
  broadcastInDim S800000x1 ![0] bcast_S800000_S800000x1_0 I

/-- The inverse square root of each node's degree (one plus its in-edges). -/
def dinv (E : IVec S2x800000 32) : FVec Ideal S50000 .f32 :=
  Host.rsqrt (addf (Host.scatterAdd scatter_S50000_S800000x1_S800000_n_0_0_1
      (broadcastInDim S50000 ![] bcast_S_S50000 (constant (F := Ideal) S_ .f32 0x00000000#32))
      (col (wrap (dstRaw E)))
      (broadcastInDim S800000 ![] bcast_S_S800000 (constant (F := Ideal) S_ .f32 0x3F800000#32)))
    (broadcastInDim S50000 ![] bcast_S_S50000 (constant (F := Ideal) S_ .f32 0x3F800000#32)))

/-- An edge's weight: dinv at its source times dinv at its destination. -/
def norm (E : IVec S2x800000 32) : FVec Ideal S800000 .f32 :=
  mulf (Host.gather gather_S50000_S800000x1_S800000_n_0_n_n_0_1_1 (dinv E) (col (wrap (srcRaw E))))
    (Host.gather gather_S50000_S800000x1_S800000_n_0_n_n_0_1_1 (dinv E) (col (wrap (dstRaw E))))

/-- The messages summed at their destinations: each edge carries `hw` at its source scaled by its weight. -/
def agg (E : IVec S2x800000 32) (hw : FVec Ideal S50000x64 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (col (dstRaw E))
    (mulf (Host.gather gather_S50000x64_S800000x1_S800000x64_1_0_n_n_0_1_164 hw (col (wrap (srcRaw E))))
      (broadcastInDim S800000x64 ![0, 1] bcast_S800000x1_S800000x64_0_1 (broadcastInDim S800000x1 ![0] bcast_S800000_S800000x1_0 (norm E))))

/-- dinv² of each node, repeated along its row. -/
def selfScale (E : IVec S2x800000 32) : FVec Ideal S50000x64 .f32 :=
  broadcastInDim S50000x64 ![0, 1] bcast_S50000x1_S50000x64_0_1 (broadcastInDim S50000x1 ![0] bcast_S50000_S50000x1_0 (mulf (dinv E) (dinv E)))

/-- A bias repeated on every row. -/
def biasRows (b : FVec Ideal S64 .f32) : FVec Ideal S50000x64 .f32 :=
  broadcastInDim S50000x64 ![0, 1] bcast_S1x64_S50000x64_0_1 (broadcastInDim S1x64 ![1] bcast_S64_S1x64_1 b)

/-- A convolution from its transformed features `hw`: summed messages, plus the self term, plus the bias. -/
def convOf (E : IVec S2x800000 32) (hw : FVec Ideal S50000x64 .f32) (b : FVec Ideal S64 .f32) : FVec Ideal S50000x64 .f32 :=
  addf (addf (agg E hw) (mulf hw (selfScale E))) (biasRows b)

/-- A convolution of features `H` with weights `W` and bias `b`. -/
def conv (E : IVec S2x800000 32) (H : FVec Ideal S50000x64 .f32) (W : FVec Ideal S64x64 .f32) (b : FVec Ideal S64 .f32) : FVec Ideal S50000x64 .f32 :=
  convOf E (Host.dotGeneral dot_S50000x64_S64x64_S50000x64_1_0_0_1_n_n none H W) b

/-- Negative entries floored at zero. -/
def relu (X : FVec Ideal S50000x64 .f32) : FVec Ideal S50000x64 .f32 :=
  maximumf X (broadcastInDim S50000x64 ![] bcast_S_S50000x64 (constant (F := Ideal) S_ .f32 0x00000000#32))

/-- The first, linear layer. -/
def lin0 (X : FVec Ideal S50000x128 .f32) (W : FVec Ideal S128x64 .f32) (b : FVec Ideal S64 .f32) : FVec Ideal S50000x64 .f32 :=
  addf (Host.dotGeneral dot_S50000x128_S128x64_S50000x64_1_0_0_1_n_n none X W) (biasRows b)

/-- The network. -/
def gcn (x : FVec Ideal S50000x128 .f32) (E : IVec S2x800000 32) (w0 : FVec Ideal S128x64 .f32) (b0 : FVec Ideal S64 .f32)
    (w1 : FVec Ideal S64x64 .f32) (b1 : FVec Ideal S64 .f32) (w2 : FVec Ideal S64x64 .f32) (b2 : FVec Ideal S64 .f32)
    (w3 : FVec Ideal S64x64 .f32) (b3 : FVec Ideal S64 .f32) : FVec Ideal S50000x64 .f32 :=
  conv E (relu (conv E (relu (conv E (lin0 x w0 b0) w1 b1)) w2 b2)) w3 b3

/-! ## The two dense pieces, entry by entry, are these array forms -/

/-- A one-row bias cast from a vector, read on any row, is the vector at the column; so is the bias repeated on every row. -/
theorem biasRows_apply (b : FVec Ideal S64 .f32) (h : S64.ShapeCasts S1x64) (i : S50000x64.Idx) :
    shapeCast S1x64 b h (rowAt i) = biasRows b i := by
  unfold biasRows
  rw [shapeCast_rowvec_apply, broadcastInDim_row_apply, broadcastInDim_rowvec_apply]

/-- The linear layer: product plus bias, entry by entry. -/
theorem lin0_eq (X : FVec Ideal S50000x128 .f32) (W : FVec Ideal S128x64 .f32) (b : FVec Ideal S64 .f32) (h : S64.ShapeCasts S1x64) :
    linAt X W (shapeCast S1x64 b h) = lin0 X W b := by
  funext i
  unfold linAt lin0
  refine (congrArg₂ (· + ·) ?_ (biasRows_apply b h i)).trans (addf_apply _ _ i).symm
  exact ((Ideal.dotGeneral_apply dot_S50000x128_S128x64_S50000x64_1_0_0_1_n_n none .single X W i).trans
    (sum_contr_eq dot_S50000x128_S128x64_S50000x64_1_0_0_1_n_n rfl rfl (fun _ _ => rfl) (fun _ _ => rfl) (fun _ _ => rfl) (fun _ _ => rfl) X W i)).symm

/-- A product accumulated onto a zero row is the product: x + 0 = x for every extended real. -/
theorem dot64_eq (H : FVec Ideal S50000x64 .f32) (W : FVec Ideal S64x64 .f32) (h0 : S_.BroadcastsInDim S64 (![] : Fin 0 → Fin S64.rank)) (h : S64.ShapeCasts S1x64) :
    linAt H W (shapeCast S1x64 (broadcastInDim S64 ![] h0 (constant (F := Ideal) S_ .f32 0x00000000#32)) h)
      = Host.dotGeneral dot_S50000x64_S64x64_S50000x64_1_0_0_1_n_n none H W := by
  funext i
  unfold linAt
  rw [shapeCast_rowvec_apply]
  have hz : broadcastInDim S64 ![] h0 (constant (F := Ideal) S_ .f32 0x00000000#32) (ix1 ⟨((rowAt i) 1).val, ((rowAt i) 1).isLt⟩) = (0 : EReal) := by
    rw [broadcastInDim_apply _ h0 _ _ ix0 (fun a => a.elim0)]
    exact Ideal.ofBits_zero_f32
  rw [hz, add_zero]
  exact ((Ideal.dotGeneral_apply dot_S50000x64_S64x64_S50000x64_1_0_0_1_n_n none .single H W i).trans
    (sum_contr_eq dot_S50000x64_S64x64_S50000x64_1_0_0_1_n_n rfl rfl (fun _ _ => rfl) (fun _ _ => rfl) (fun _ _ => rfl) (fun _ _ => rfl) H W i)).symm

/-- The finishing piece: with the factor column cast from dinv² and the bias row cast from the bias. -/
theorem convOf_eq (E : IVec S2x800000 32) (A hw : FVec Ideal S50000x64 .f32) (b : FVec Ideal S64 .f32)
    (hd : S50000.ShapeCasts S50000x1) (h : S64.ShapeCasts S1x64) :
    finAt A hw (shapeCast S50000x1 (mulf (dinv E) (dinv E)) hd) (shapeCast S1x64 b h)
      = addf (addf A (mulf hw (selfScale E))) (biasRows b) := by
  funext i
  have hs : shapeCast S50000x1 (mulf (dinv E) (dinv E)) hd (colAt i) = selfScale E i := by
    unfold selfScale
    rw [shapeCast_keepdims_apply, broadcastInDim_col_apply, broadcastInDim_keepdims_apply]
  unfold finAt
  rw [hs, biasRows_apply b h i]
  rfl

/-- Flooring at the zero word is the network's relu. -/
theorem relu_eq (X : FVec Ideal S50000x64 .f32) : floorAt (Ideal.ofBits .f32 0x00000000#32) X = relu X := by
  funext i
  unfold floorAt relu
  refine (congrArg (max (X i)) ?_).trans (maximumf_apply _ _ i).symm
  rw [broadcastInDim_apply _ bcast_S_S50000x64 _ i ix0 (fun a => a.elim0)]
  rfl

end Cert.Gcn

end
-- ==== Proof.KernelValue.lean ====
/-
  The kernel program's result, read back through its seven launches and seven stretches of host operations.

  The buffers' contents at each boundary are a fold from the launch memory. Walking the fold forward:
  the first stretch computes, from the edge list alone, the sources, the destinations, every edge's weight and the
  column of squared inverse-square-root degrees, and recasts the first bias as a row; the first launch is the
  linear layer. Then three times: a stretch makes a zero row, a launch multiplies the features by the layer's
  weights onto that zero row (which is the plain product), a stretch gathers, scales and sums the messages and
  recasts the bias, and a launch adds the self term and the bias (and floors at zero, but for the last layer).
  Buffers a step does not write keep their contents, so the graph quantities computed once are the ones every
  layer reads. At the end the result buffer holds the network's value at the launch arguments.
-/
import proofs.«153233_j59854664237127_1_alg».proof.Proof.Gen.KernelIdeal.Frame
import proofs.«153233_j59854664237127_1_alg».proof.Proof.RegionLin0
import proofs.«153233_j59854664237127_1_alg».proof.Proof.RegionLin1
import proofs.«153233_j59854664237127_1_alg».proof.Proof.RegionLin3
import proofs.«153233_j59854664237127_1_alg».proof.Proof.RegionLin5
import proofs.«153233_j59854664237127_1_alg».proof.Proof.RegionFin2
import proofs.«153233_j59854664237127_1_alg».proof.Proof.RegionFin4
import proofs.«153233_j59854664237127_1_alg».proof.Proof.RegionFin6
import proofs.«153233_j59854664237127_1_alg».proof.Proof.GcnSpec

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo Cert.Layers

variable (m : (ℓ : Loc nD τ sig) → Buf (Elt Ideal) ℓ) (ρ : Dev nD → PrngReg) (c : Dev nD)

/-! ## The values along the way, as functions of the launch arguments -/

/-- The column of squared inverse-square-root degrees. -/
def d2col := shapeCast S50000x1 (mulf (Cert.Gcn.dinv (m ((c : Thread nD τ).loc main_arg1))) (Cert.Gcn.dinv (m ((c : Thread nD τ).loc main_arg1)))) shapeCasts_S50000_S50000x1
/-- A row of zeros. -/
def zrow := shapeCast S1x64 (broadcastInDim S64 ![] bcast_S_S64 (constant (F := Ideal) S_ .f32 0x00000000#32)) shapeCasts_S64_S1x64
/-- The features after the linear layer. -/
def feat0 := Cert.Gcn.lin0 (m ((c : Thread nD τ).loc main_arg0)) (m ((c : Thread nD τ).loc main_arg2)) (m ((c : Thread nD τ).loc main_arg3))
def hw1 : FVec Ideal Cert.ReferenceIdeal.S50000x64 .f32 := Host.dotGeneral (φ₁ := .f32) (φ₂ := .f32) Cert.ReferenceIdeal.dot_S50000x64_S64x64_S50000x64_1_0_0_1_n_n none (feat0 m c) (m ((c : Thread nD τ).loc main_arg4))
/-- The features after the first convolution and its floor. -/
def feat1 := Cert.Gcn.relu (Cert.Gcn.convOf (m ((c : Thread nD τ).loc main_arg1)) (hw1 m c) (m ((c : Thread nD τ).loc main_arg5)))
def hw2 : FVec Ideal Cert.ReferenceIdeal.S50000x64 .f32 := Host.dotGeneral (φ₁ := .f32) (φ₂ := .f32) Cert.ReferenceIdeal.dot_S50000x64_S64x64_S50000x64_1_0_0_1_n_n none (feat1 m c) (m ((c : Thread nD τ).loc main_arg6))
/-- The features after the second convolution and its floor. -/
def feat2 := Cert.Gcn.relu (Cert.Gcn.convOf (m ((c : Thread nD τ).loc main_arg1)) (hw2 m c) (m ((c : Thread nD τ).loc main_arg7)))
def hw3 : FVec Ideal Cert.ReferenceIdeal.S50000x64 .f32 := Host.dotGeneral (φ₁ := .f32) (φ₂ := .f32) Cert.ReferenceIdeal.dot_S50000x64_S64x64_S50000x64_1_0_0_1_n_n none (feat2 m c) (m ((c : Thread nD τ).loc main_arg8))
/-- The last convolution: the network's value. -/
def feat3 := Cert.Gcn.convOf (m ((c : Thread nD τ).loc main_arg1)) (hw3 m c) (m ((c : Thread nD τ).loc main_arg9))

theorem feat3_eq : feat3 m c = Cert.Gcn.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := rfl

/-! ## After the first stretch -/

theorem o1_v1 : StableHlo.after hostOps0 (W0 m ρ c) (Proc.devRef .tc main_v1) = (Cert.Gcn.srcRaw (m ((c : Thread nD τ).loc main_arg1))) := by
  after_results_simp <;> rfl
theorem o1_v3 : StableHlo.after hostOps0 (W0 m ρ c) (Proc.devRef .tc main_v3) = (Cert.Gcn.dstRaw (m ((c : Thread nD τ).loc main_arg1))) := by
  after_results_simp <;> rfl
theorem o1_v30 : StableHlo.after hostOps0 (W0 m ρ c) (Proc.devRef .tc main_v30) = (Cert.Gcn.norm (m ((c : Thread nD τ).loc main_arg1))) := by
  after_results_simp <;> rfl
theorem o1_v32 : StableHlo.after hostOps0 (W0 m ρ c) (Proc.devRef .tc main_v32) = (d2col m c) := by
  after_results_simp <;> rfl
theorem o1_arg0 : StableHlo.after hostOps0 (W0 m ρ c) (Proc.devRef .tc main_arg0) = (m ((c : Thread nD τ).loc main_arg0)) := by
  after_results_simp <;> rfl
theorem o1_arg2 : StableHlo.after hostOps0 (W0 m ρ c) (Proc.devRef .tc main_arg2) = (m ((c : Thread nD τ).loc main_arg2)) := by
  after_results_simp <;> rfl
theorem o1_arg3 : StableHlo.after hostOps0 (W0 m ρ c) (Proc.devRef .tc main_arg3) = (m ((c : Thread nD τ).loc main_arg3)) := by
  after_results_simp <;> rfl
theorem o1_arg4 : StableHlo.after hostOps0 (W0 m ρ c) (Proc.devRef .tc main_arg4) = (m ((c : Thread nD τ).loc main_arg4)) := by
  after_results_simp <;> rfl
theorem o1_arg5 : StableHlo.after hostOps0 (W0 m ρ c) (Proc.devRef .tc main_arg5) = (m ((c : Thread nD τ).loc main_arg5)) := by
  after_results_simp <;> rfl
theorem o1_arg6 : StableHlo.after hostOps0 (W0 m ρ c) (Proc.devRef .tc main_arg6) = (m ((c : Thread nD τ).loc main_arg6)) := by
  after_results_simp <;> rfl
theorem o1_arg7 : StableHlo.after hostOps0 (W0 m ρ c) (Proc.devRef .tc main_arg7) = (m ((c : Thread nD τ).loc main_arg7)) := by
  after_results_simp <;> rfl
theorem o1_arg8 : StableHlo.after hostOps0 (W0 m ρ c) (Proc.devRef .tc main_arg8) = (m ((c : Thread nD τ).loc main_arg8)) := by
  after_results_simp <;> rfl
theorem o1_arg9 : StableHlo.after hostOps0 (W0 m ρ c) (Proc.devRef .tc main_arg9) = (m ((c : Thread nD τ).loc main_arg9)) := by
  after_results_simp <;> rfl
theorem o1_v33 : StableHlo.after hostOps0 (W0 m ρ c) (Proc.devRef .tc main_v33) = shapeCast S1x64 (m ((c : Thread nD τ).loc main_arg3)) shapeCasts_S64_S1x64 := by
  after_results_simp <;> rfl

/-! ## What no later step writes keeps its contents -/

theorem w2_v1 : W2 m ρ c (Proc.devRef .tc main_v1) = (Cert.Gcn.srcRaw (m ((c : Thread nD τ).loc main_arg1))) :=
  (W2_of_ne m ρ c main_v1 (by decide)).trans (o1_v1 m ρ c)
theorem o3_v1 : StableHlo.after hostOps1 (W2 m ρ c) (Proc.devRef .tc main_v1) = (Cert.Gcn.srcRaw (m ((c : Thread nD τ).loc main_arg1))) :=
  (show StableHlo.after hostOps1 (W2 m ρ c) (Proc.devRef .tc main_v1) = W2 m ρ c (Proc.devRef .tc main_v1) by after_results).trans (w2_v1 m ρ c)
theorem w4_v1 : W4 m ρ c (Proc.devRef .tc main_v1) = (Cert.Gcn.srcRaw (m ((c : Thread nD τ).loc main_arg1))) :=
  (W4_of_ne m ρ c main_v1 (by decide)).trans (o3_v1 m ρ c)
theorem o5_v1 : StableHlo.after hostOps2 (W4 m ρ c) (Proc.devRef .tc main_v1) = (Cert.Gcn.srcRaw (m ((c : Thread nD τ).loc main_arg1))) :=
  (show StableHlo.after hostOps2 (W4 m ρ c) (Proc.devRef .tc main_v1) = W4 m ρ c (Proc.devRef .tc main_v1) by after_results).trans (w4_v1 m ρ c)
theorem w6_v1 : W6 m ρ c (Proc.devRef .tc main_v1) = (Cert.Gcn.srcRaw (m ((c : Thread nD τ).loc main_arg1))) :=
  (W6_of_ne m ρ c main_v1 (by decide)).trans (o5_v1 m ρ c)
theorem o7_v1 : StableHlo.after hostOps3 (W6 m ρ c) (Proc.devRef .tc main_v1) = (Cert.Gcn.srcRaw (m ((c : Thread nD τ).loc main_arg1))) :=
  (show StableHlo.after hostOps3 (W6 m ρ c) (Proc.devRef .tc main_v1) = W6 m ρ c (Proc.devRef .tc main_v1) by after_results).trans (w6_v1 m ρ c)
theorem w8_v1 : W8 m ρ c (Proc.devRef .tc main_v1) = (Cert.Gcn.srcRaw (m ((c : Thread nD τ).loc main_arg1))) :=
  (W8_of_ne m ρ c main_v1 (by decide)).trans (o7_v1 m ρ c)
theorem o9_v1 : StableHlo.after hostOps4 (W8 m ρ c) (Proc.devRef .tc main_v1) = (Cert.Gcn.srcRaw (m ((c : Thread nD τ).loc main_arg1))) :=
  (show StableHlo.after hostOps4 (W8 m ρ c) (Proc.devRef .tc main_v1) = W8 m ρ c (Proc.devRef .tc main_v1) by after_results).trans (w8_v1 m ρ c)
theorem w10_v1 : W10 m ρ c (Proc.devRef .tc main_v1) = (Cert.Gcn.srcRaw (m ((c : Thread nD τ).loc main_arg1))) :=
  (W10_of_ne m ρ c main_v1 (by decide)).trans (o9_v1 m ρ c)
theorem o11_v1 : StableHlo.after hostOps5 (W10 m ρ c) (Proc.devRef .tc main_v1) = (Cert.Gcn.srcRaw (m ((c : Thread nD τ).loc main_arg1))) :=
  (show StableHlo.after hostOps5 (W10 m ρ c) (Proc.devRef .tc main_v1) = W10 m ρ c (Proc.devRef .tc main_v1) by after_results).trans (w10_v1 m ρ c)
theorem w12_v1 : W12 m ρ c (Proc.devRef .tc main_v1) = (Cert.Gcn.srcRaw (m ((c : Thread nD τ).loc main_arg1))) :=
  (W12_of_ne m ρ c main_v1 (by decide)).trans (o11_v1 m ρ c)
theorem w2_v3 : W2 m ρ c (Proc.devRef .tc main_v3) = (Cert.Gcn.dstRaw (m ((c : Thread nD τ).loc main_arg1))) :=
  (W2_of_ne m ρ c main_v3 (by decide)).trans (o1_v3 m ρ c)
theorem o3_v3 : StableHlo.after hostOps1 (W2 m ρ c) (Proc.devRef .tc main_v3) = (Cert.Gcn.dstRaw (m ((c : Thread nD τ).loc main_arg1))) :=
  (show StableHlo.after hostOps1 (W2 m ρ c) (Proc.devRef .tc main_v3) = W2 m ρ c (Proc.devRef .tc main_v3) by after_results).trans (w2_v3 m ρ c)
theorem w4_v3 : W4 m ρ c (Proc.devRef .tc main_v3) = (Cert.Gcn.dstRaw (m ((c : Thread nD τ).loc main_arg1))) :=
  (W4_of_ne m ρ c main_v3 (by decide)).trans (o3_v3 m ρ c)
theorem o5_v3 : StableHlo.after hostOps2 (W4 m ρ c) (Proc.devRef .tc main_v3) = (Cert.Gcn.dstRaw (m ((c : Thread nD τ).loc main_arg1))) :=
  (show StableHlo.after hostOps2 (W4 m ρ c) (Proc.devRef .tc main_v3) = W4 m ρ c (Proc.devRef .tc main_v3) by after_results).trans (w4_v3 m ρ c)
theorem w6_v3 : W6 m ρ c (Proc.devRef .tc main_v3) = (Cert.Gcn.dstRaw (m ((c : Thread nD τ).loc main_arg1))) :=
  (W6_of_ne m ρ c main_v3 (by decide)).trans (o5_v3 m ρ c)
theorem o7_v3 : StableHlo.after hostOps3 (W6 m ρ c) (Proc.devRef .tc main_v3) = (Cert.Gcn.dstRaw (m ((c : Thread nD τ).loc main_arg1))) :=
  (show StableHlo.after hostOps3 (W6 m ρ c) (Proc.devRef .tc main_v3) = W6 m ρ c (Proc.devRef .tc main_v3) by after_results).trans (w6_v3 m ρ c)
theorem w8_v3 : W8 m ρ c (Proc.devRef .tc main_v3) = (Cert.Gcn.dstRaw (m ((c : Thread nD τ).loc main_arg1))) :=
  (W8_of_ne m ρ c main_v3 (by decide)).trans (o7_v3 m ρ c)
theorem o9_v3 : StableHlo.after hostOps4 (W8 m ρ c) (Proc.devRef .tc main_v3) = (Cert.Gcn.dstRaw (m ((c : Thread nD τ).loc main_arg1))) :=
  (show StableHlo.after hostOps4 (W8 m ρ c) (Proc.devRef .tc main_v3) = W8 m ρ c (Proc.devRef .tc main_v3) by after_results).trans (w8_v3 m ρ c)
theorem w10_v3 : W10 m ρ c (Proc.devRef .tc main_v3) = (Cert.Gcn.dstRaw (m ((c : Thread nD τ).loc main_arg1))) :=
  (W10_of_ne m ρ c main_v3 (by decide)).trans (o9_v3 m ρ c)
theorem o11_v3 : StableHlo.after hostOps5 (W10 m ρ c) (Proc.devRef .tc main_v3) = (Cert.Gcn.dstRaw (m ((c : Thread nD τ).loc main_arg1))) :=
  (show StableHlo.after hostOps5 (W10 m ρ c) (Proc.devRef .tc main_v3) = W10 m ρ c (Proc.devRef .tc main_v3) by after_results).trans (w10_v3 m ρ c)
theorem w12_v3 : W12 m ρ c (Proc.devRef .tc main_v3) = (Cert.Gcn.dstRaw (m ((c : Thread nD τ).loc main_arg1))) :=
  (W12_of_ne m ρ c main_v3 (by decide)).trans (o11_v3 m ρ c)
theorem w2_v30 : W2 m ρ c (Proc.devRef .tc main_v30) = (Cert.Gcn.norm (m ((c : Thread nD τ).loc main_arg1))) :=
  (W2_of_ne m ρ c main_v30 (by decide)).trans (o1_v30 m ρ c)
theorem o3_v30 : StableHlo.after hostOps1 (W2 m ρ c) (Proc.devRef .tc main_v30) = (Cert.Gcn.norm (m ((c : Thread nD τ).loc main_arg1))) :=
  (show StableHlo.after hostOps1 (W2 m ρ c) (Proc.devRef .tc main_v30) = W2 m ρ c (Proc.devRef .tc main_v30) by after_results).trans (w2_v30 m ρ c)
theorem w4_v30 : W4 m ρ c (Proc.devRef .tc main_v30) = (Cert.Gcn.norm (m ((c : Thread nD τ).loc main_arg1))) :=
  (W4_of_ne m ρ c main_v30 (by decide)).trans (o3_v30 m ρ c)
theorem o5_v30 : StableHlo.after hostOps2 (W4 m ρ c) (Proc.devRef .tc main_v30) = (Cert.Gcn.norm (m ((c : Thread nD τ).loc main_arg1))) :=
  (show StableHlo.after hostOps2 (W4 m ρ c) (Proc.devRef .tc main_v30) = W4 m ρ c (Proc.devRef .tc main_v30) by after_results).trans (w4_v30 m ρ c)
theorem w6_v30 : W6 m ρ c (Proc.devRef .tc main_v30) = (Cert.Gcn.norm (m ((c : Thread nD τ).loc main_arg1))) :=
  (W6_of_ne m ρ c main_v30 (by decide)).trans (o5_v30 m ρ c)
theorem o7_v30 : StableHlo.after hostOps3 (W6 m ρ c) (Proc.devRef .tc main_v30) = (Cert.Gcn.norm (m ((c : Thread nD τ).loc main_arg1))) :=
  (show StableHlo.after hostOps3 (W6 m ρ c) (Proc.devRef .tc main_v30) = W6 m ρ c (Proc.devRef .tc main_v30) by after_results).trans (w6_v30 m ρ c)
theorem w8_v30 : W8 m ρ c (Proc.devRef .tc main_v30) = (Cert.Gcn.norm (m ((c : Thread nD τ).loc main_arg1))) :=
  (W8_of_ne m ρ c main_v30 (by decide)).trans (o7_v30 m ρ c)
theorem o9_v30 : StableHlo.after hostOps4 (W8 m ρ c) (Proc.devRef .tc main_v30) = (Cert.Gcn.norm (m ((c : Thread nD τ).loc main_arg1))) :=
  (show StableHlo.after hostOps4 (W8 m ρ c) (Proc.devRef .tc main_v30) = W8 m ρ c (Proc.devRef .tc main_v30) by after_results).trans (w8_v30 m ρ c)
theorem w10_v30 : W10 m ρ c (Proc.devRef .tc main_v30) = (Cert.Gcn.norm (m ((c : Thread nD τ).loc main_arg1))) :=
  (W10_of_ne m ρ c main_v30 (by decide)).trans (o9_v30 m ρ c)
theorem o11_v30 : StableHlo.after hostOps5 (W10 m ρ c) (Proc.devRef .tc main_v30) = (Cert.Gcn.norm (m ((c : Thread nD τ).loc main_arg1))) :=
  (show StableHlo.after hostOps5 (W10 m ρ c) (Proc.devRef .tc main_v30) = W10 m ρ c (Proc.devRef .tc main_v30) by after_results).trans (w10_v30 m ρ c)
theorem w12_v30 : W12 m ρ c (Proc.devRef .tc main_v30) = (Cert.Gcn.norm (m ((c : Thread nD τ).loc main_arg1))) :=
  (W12_of_ne m ρ c main_v30 (by decide)).trans (o11_v30 m ρ c)
theorem w2_v32 : W2 m ρ c (Proc.devRef .tc main_v32) = (d2col m c) :=
  (W2_of_ne m ρ c main_v32 (by decide)).trans (o1_v32 m ρ c)
theorem o3_v32 : StableHlo.after hostOps1 (W2 m ρ c) (Proc.devRef .tc main_v32) = (d2col m c) :=
  (show StableHlo.after hostOps1 (W2 m ρ c) (Proc.devRef .tc main_v32) = W2 m ρ c (Proc.devRef .tc main_v32) by after_results).trans (w2_v32 m ρ c)
theorem w4_v32 : W4 m ρ c (Proc.devRef .tc main_v32) = (d2col m c) :=
  (W4_of_ne m ρ c main_v32 (by decide)).trans (o3_v32 m ρ c)
theorem o5_v32 : StableHlo.after hostOps2 (W4 m ρ c) (Proc.devRef .tc main_v32) = (d2col m c) :=
  (show StableHlo.after hostOps2 (W4 m ρ c) (Proc.devRef .tc main_v32) = W4 m ρ c (Proc.devRef .tc main_v32) by after_results).trans (w4_v32 m ρ c)
theorem w6_v32 : W6 m ρ c (Proc.devRef .tc main_v32) = (d2col m c) :=
  ((W6_arr m ρ c 2).trans (((dat2 (V5 m ρ) c).arrAt_in 2 rfl _).trans (A_eq2 (V5 m ρ) c 2))).trans (o5_v32 m ρ c)
theorem o7_v32 : StableHlo.after hostOps3 (W6 m ρ c) (Proc.devRef .tc main_v32) = (d2col m c) :=
  (show StableHlo.after hostOps3 (W6 m ρ c) (Proc.devRef .tc main_v32) = W6 m ρ c (Proc.devRef .tc main_v32) by after_results).trans (w6_v32 m ρ c)
theorem w8_v32 : W8 m ρ c (Proc.devRef .tc main_v32) = (d2col m c) :=
  (W8_of_ne m ρ c main_v32 (by decide)).trans (o7_v32 m ρ c)
theorem o9_v32 : StableHlo.after hostOps4 (W8 m ρ c) (Proc.devRef .tc main_v32) = (d2col m c) :=
  (show StableHlo.after hostOps4 (W8 m ρ c) (Proc.devRef .tc main_v32) = W8 m ρ c (Proc.devRef .tc main_v32) by after_results).trans (w8_v32 m ρ c)
theorem w10_v32 : W10 m ρ c (Proc.devRef .tc main_v32) = (d2col m c) :=
  ((W10_arr m ρ c 2).trans (((dat4 (V9 m ρ) c).arrAt_in 2 rfl _).trans (A_eq4 (V9 m ρ) c 2))).trans (o9_v32 m ρ c)
theorem o11_v32 : StableHlo.after hostOps5 (W10 m ρ c) (Proc.devRef .tc main_v32) = (d2col m c) :=
  (show StableHlo.after hostOps5 (W10 m ρ c) (Proc.devRef .tc main_v32) = W10 m ρ c (Proc.devRef .tc main_v32) by after_results).trans (w10_v32 m ρ c)
theorem w12_v32 : W12 m ρ c (Proc.devRef .tc main_v32) = (d2col m c) :=
  (W12_of_ne m ρ c main_v32 (by decide)).trans (o11_v32 m ρ c)
theorem o13_v32 : StableHlo.after hostOps6 (W12 m ρ c) (Proc.devRef .tc main_v32) = (d2col m c) :=
  (show StableHlo.after hostOps6 (W12 m ρ c) (Proc.devRef .tc main_v32) = W12 m ρ c (Proc.devRef .tc main_v32) by after_results).trans (w12_v32 m ρ c)
theorem w2_arg4 : W2 m ρ c (Proc.devRef .tc main_arg4) = (m ((c : Thread nD τ).loc main_arg4)) :=
  (W2_of_ne m ρ c main_arg4 (by decide)).trans (o1_arg4 m ρ c)
theorem o3_arg4 : StableHlo.after hostOps1 (W2 m ρ c) (Proc.devRef .tc main_arg4) = (m ((c : Thread nD τ).loc main_arg4)) :=
  (show StableHlo.after hostOps1 (W2 m ρ c) (Proc.devRef .tc main_arg4) = W2 m ρ c (Proc.devRef .tc main_arg4) by after_results).trans (w2_arg4 m ρ c)
theorem w2_arg5 : W2 m ρ c (Proc.devRef .tc main_arg5) = (m ((c : Thread nD τ).loc main_arg5)) :=
  (W2_of_ne m ρ c main_arg5 (by decide)).trans (o1_arg5 m ρ c)
theorem o3_arg5 : StableHlo.after hostOps1 (W2 m ρ c) (Proc.devRef .tc main_arg5) = (m ((c : Thread nD τ).loc main_arg5)) :=
  (show StableHlo.after hostOps1 (W2 m ρ c) (Proc.devRef .tc main_arg5) = W2 m ρ c (Proc.devRef .tc main_arg5) by after_results).trans (w2_arg5 m ρ c)
theorem w4_arg5 : W4 m ρ c (Proc.devRef .tc main_arg5) = (m ((c : Thread nD τ).loc main_arg5)) :=
  (W4_of_ne m ρ c main_arg5 (by decide)).trans (o3_arg5 m ρ c)
theorem w2_arg6 : W2 m ρ c (Proc.devRef .tc main_arg6) = (m ((c : Thread nD τ).loc main_arg6)) :=
  (W2_of_ne m ρ c main_arg6 (by decide)).trans (o1_arg6 m ρ c)
theorem o3_arg6 : StableHlo.after hostOps1 (W2 m ρ c) (Proc.devRef .tc main_arg6) = (m ((c : Thread nD τ).loc main_arg6)) :=
  (show StableHlo.after hostOps1 (W2 m ρ c) (Proc.devRef .tc main_arg6) = W2 m ρ c (Proc.devRef .tc main_arg6) by after_results).trans (w2_arg6 m ρ c)
theorem w4_arg6 : W4 m ρ c (Proc.devRef .tc main_arg6) = (m ((c : Thread nD τ).loc main_arg6)) :=
  (W4_of_ne m ρ c main_arg6 (by decide)).trans (o3_arg6 m ρ c)
theorem o5_arg6 : StableHlo.after hostOps2 (W4 m ρ c) (Proc.devRef .tc main_arg6) = (m ((c : Thread nD τ).loc main_arg6)) :=
  (show StableHlo.after hostOps2 (W4 m ρ c) (Proc.devRef .tc main_arg6) = W4 m ρ c (Proc.devRef .tc main_arg6) by after_results).trans (w4_arg6 m ρ c)
theorem w6_arg6 : W6 m ρ c (Proc.devRef .tc main_arg6) = (m ((c : Thread nD τ).loc main_arg6)) :=
  (W6_of_ne m ρ c main_arg6 (by decide)).trans (o5_arg6 m ρ c)
theorem o7_arg6 : StableHlo.after hostOps3 (W6 m ρ c) (Proc.devRef .tc main_arg6) = (m ((c : Thread nD τ).loc main_arg6)) :=
  (show StableHlo.after hostOps3 (W6 m ρ c) (Proc.devRef .tc main_arg6) = W6 m ρ c (Proc.devRef .tc main_arg6) by after_results).trans (w6_arg6 m ρ c)
theorem w2_arg7 : W2 m ρ c (Proc.devRef .tc main_arg7) = (m ((c : Thread nD τ).loc main_arg7)) :=
  (W2_of_ne m ρ c main_arg7 (by decide)).trans (o1_arg7 m ρ c)
theorem o3_arg7 : StableHlo.after hostOps1 (W2 m ρ c) (Proc.devRef .tc main_arg7) = (m ((c : Thread nD τ).loc main_arg7)) :=
  (show StableHlo.after hostOps1 (W2 m ρ c) (Proc.devRef .tc main_arg7) = W2 m ρ c (Proc.devRef .tc main_arg7) by after_results).trans (w2_arg7 m ρ c)
theorem w4_arg7 : W4 m ρ c (Proc.devRef .tc main_arg7) = (m ((c : Thread nD τ).loc main_arg7)) :=
  (W4_of_ne m ρ c main_arg7 (by decide)).trans (o3_arg7 m ρ c)
theorem o5_arg7 : StableHlo.after hostOps2 (W4 m ρ c) (Proc.devRef .tc main_arg7) = (m ((c : Thread nD τ).loc main_arg7)) :=
  (show StableHlo.after hostOps2 (W4 m ρ c) (Proc.devRef .tc main_arg7) = W4 m ρ c (Proc.devRef .tc main_arg7) by after_results).trans (w4_arg7 m ρ c)
theorem w6_arg7 : W6 m ρ c (Proc.devRef .tc main_arg7) = (m ((c : Thread nD τ).loc main_arg7)) :=
  (W6_of_ne m ρ c main_arg7 (by decide)).trans (o5_arg7 m ρ c)
theorem o7_arg7 : StableHlo.after hostOps3 (W6 m ρ c) (Proc.devRef .tc main_arg7) = (m ((c : Thread nD τ).loc main_arg7)) :=
  (show StableHlo.after hostOps3 (W6 m ρ c) (Proc.devRef .tc main_arg7) = W6 m ρ c (Proc.devRef .tc main_arg7) by after_results).trans (w6_arg7 m ρ c)
theorem w8_arg7 : W8 m ρ c (Proc.devRef .tc main_arg7) = (m ((c : Thread nD τ).loc main_arg7)) :=
  (W8_of_ne m ρ c main_arg7 (by decide)).trans (o7_arg7 m ρ c)
theorem w2_arg8 : W2 m ρ c (Proc.devRef .tc main_arg8) = (m ((c : Thread nD τ).loc main_arg8)) :=
  (W2_of_ne m ρ c main_arg8 (by decide)).trans (o1_arg8 m ρ c)
theorem o3_arg8 : StableHlo.after hostOps1 (W2 m ρ c) (Proc.devRef .tc main_arg8) = (m ((c : Thread nD τ).loc main_arg8)) :=
  (show StableHlo.after hostOps1 (W2 m ρ c) (Proc.devRef .tc main_arg8) = W2 m ρ c (Proc.devRef .tc main_arg8) by after_results).trans (w2_arg8 m ρ c)
theorem w4_arg8 : W4 m ρ c (Proc.devRef .tc main_arg8) = (m ((c : Thread nD τ).loc main_arg8)) :=
  (W4_of_ne m ρ c main_arg8 (by decide)).trans (o3_arg8 m ρ c)
theorem o5_arg8 : StableHlo.after hostOps2 (W4 m ρ c) (Proc.devRef .tc main_arg8) = (m ((c : Thread nD τ).loc main_arg8)) :=
  (show StableHlo.after hostOps2 (W4 m ρ c) (Proc.devRef .tc main_arg8) = W4 m ρ c (Proc.devRef .tc main_arg8) by after_results).trans (w4_arg8 m ρ c)
theorem w6_arg8 : W6 m ρ c (Proc.devRef .tc main_arg8) = (m ((c : Thread nD τ).loc main_arg8)) :=
  (W6_of_ne m ρ c main_arg8 (by decide)).trans (o5_arg8 m ρ c)
theorem o7_arg8 : StableHlo.after hostOps3 (W6 m ρ c) (Proc.devRef .tc main_arg8) = (m ((c : Thread nD τ).loc main_arg8)) :=
  (show StableHlo.after hostOps3 (W6 m ρ c) (Proc.devRef .tc main_arg8) = W6 m ρ c (Proc.devRef .tc main_arg8) by after_results).trans (w6_arg8 m ρ c)
theorem w8_arg8 : W8 m ρ c (Proc.devRef .tc main_arg8) = (m ((c : Thread nD τ).loc main_arg8)) :=
  (W8_of_ne m ρ c main_arg8 (by decide)).trans (o7_arg8 m ρ c)
theorem o9_arg8 : StableHlo.after hostOps4 (W8 m ρ c) (Proc.devRef .tc main_arg8) = (m ((c : Thread nD τ).loc main_arg8)) :=
  (show StableHlo.after hostOps4 (W8 m ρ c) (Proc.devRef .tc main_arg8) = W8 m ρ c (Proc.devRef .tc main_arg8) by after_results).trans (w8_arg8 m ρ c)
theorem w10_arg8 : W10 m ρ c (Proc.devRef .tc main_arg8) = (m ((c : Thread nD τ).loc main_arg8)) :=
  (W10_of_ne m ρ c main_arg8 (by decide)).trans (o9_arg8 m ρ c)
theorem o11_arg8 : StableHlo.after hostOps5 (W10 m ρ c) (Proc.devRef .tc main_arg8) = (m ((c : Thread nD τ).loc main_arg8)) :=
  (show StableHlo.after hostOps5 (W10 m ρ c) (Proc.devRef .tc main_arg8) = W10 m ρ c (Proc.devRef .tc main_arg8) by after_results).trans (w10_arg8 m ρ c)
theorem w2_arg9 : W2 m ρ c (Proc.devRef .tc main_arg9) = (m ((c : Thread nD τ).loc main_arg9)) :=
  (W2_of_ne m ρ c main_arg9 (by decide)).trans (o1_arg9 m ρ c)
theorem o3_arg9 : StableHlo.after hostOps1 (W2 m ρ c) (Proc.devRef .tc main_arg9) = (m ((c : Thread nD τ).loc main_arg9)) :=
  (show StableHlo.after hostOps1 (W2 m ρ c) (Proc.devRef .tc main_arg9) = W2 m ρ c (Proc.devRef .tc main_arg9) by after_results).trans (w2_arg9 m ρ c)
theorem w4_arg9 : W4 m ρ c (Proc.devRef .tc main_arg9) = (m ((c : Thread nD τ).loc main_arg9)) :=
  (W4_of_ne m ρ c main_arg9 (by decide)).trans (o3_arg9 m ρ c)
theorem o5_arg9 : StableHlo.after hostOps2 (W4 m ρ c) (Proc.devRef .tc main_arg9) = (m ((c : Thread nD τ).loc main_arg9)) :=
  (show StableHlo.after hostOps2 (W4 m ρ c) (Proc.devRef .tc main_arg9) = W4 m ρ c (Proc.devRef .tc main_arg9) by after_results).trans (w4_arg9 m ρ c)
theorem w6_arg9 : W6 m ρ c (Proc.devRef .tc main_arg9) = (m ((c : Thread nD τ).loc main_arg9)) :=
  (W6_of_ne m ρ c main_arg9 (by decide)).trans (o5_arg9 m ρ c)
theorem o7_arg9 : StableHlo.after hostOps3 (W6 m ρ c) (Proc.devRef .tc main_arg9) = (m ((c : Thread nD τ).loc main_arg9)) :=
  (show StableHlo.after hostOps3 (W6 m ρ c) (Proc.devRef .tc main_arg9) = W6 m ρ c (Proc.devRef .tc main_arg9) by after_results).trans (w6_arg9 m ρ c)
theorem w8_arg9 : W8 m ρ c (Proc.devRef .tc main_arg9) = (m ((c : Thread nD τ).loc main_arg9)) :=
  (W8_of_ne m ρ c main_arg9 (by decide)).trans (o7_arg9 m ρ c)
theorem o9_arg9 : StableHlo.after hostOps4 (W8 m ρ c) (Proc.devRef .tc main_arg9) = (m ((c : Thread nD τ).loc main_arg9)) :=
  (show StableHlo.after hostOps4 (W8 m ρ c) (Proc.devRef .tc main_arg9) = W8 m ρ c (Proc.devRef .tc main_arg9) by after_results).trans (w8_arg9 m ρ c)
theorem w10_arg9 : W10 m ρ c (Proc.devRef .tc main_arg9) = (m ((c : Thread nD τ).loc main_arg9)) :=
  (W10_of_ne m ρ c main_arg9 (by decide)).trans (o9_arg9 m ρ c)
theorem o11_arg9 : StableHlo.after hostOps5 (W10 m ρ c) (Proc.devRef .tc main_arg9) = (m ((c : Thread nD τ).loc main_arg9)) :=
  (show StableHlo.after hostOps5 (W10 m ρ c) (Proc.devRef .tc main_arg9) = W10 m ρ c (Proc.devRef .tc main_arg9) by after_results).trans (w10_arg9 m ρ c)
theorem w12_arg9 : W12 m ρ c (Proc.devRef .tc main_arg9) = (m ((c : Thread nD τ).loc main_arg9)) :=
  (W12_of_ne m ρ c main_arg9 (by decide)).trans (o11_arg9 m ρ c)

/-! ## The linear layer -/

theorem w2_v34 : W2 m ρ c (Proc.devRef .tc main_v34) = feat0 m c := by
  refine (W2_arr m ρ c 3).trans ((Lin0.final (V1 m ρ) c).trans ?_)
  show linAt (M := 50000) (K := 128) (N := 64) (StableHlo.after hostOps0 (W0 m ρ c) (Proc.devRef .tc main_arg0)) (StableHlo.after hostOps0 (W0 m ρ c) (Proc.devRef .tc main_arg2)) (StableHlo.after hostOps0 (W0 m ρ c) (Proc.devRef .tc main_v33)) = _
  rw [o1_arg0 m ρ c, o1_arg2 m ρ c, o1_v33 m ρ c]
  exact Cert.Gcn.lin0_eq _ _ _ _

/-! ## Convolution 1 -/

theorem o3_v34 : StableHlo.after hostOps1 (W2 m ρ c) (Proc.devRef .tc main_v34) = feat0 m c :=
  (show StableHlo.after hostOps1 (W2 m ρ c) (Proc.devRef .tc main_v34) = W2 m ρ c (Proc.devRef .tc main_v34) by after_results).trans (w2_v34 m ρ c)
theorem o3_v36 : StableHlo.after hostOps1 (W2 m ρ c) (Proc.devRef .tc main_v36) = zrow := by
  after_results
  rfl
theorem w4_v37 : W4 m ρ c (Proc.devRef .tc main_v37) = hw1 m c := by
  unfold hw1
  refine (W4_arr m ρ c 3).trans ((Lin1.final (V3 m ρ) c).trans ?_)
  show linAt (M := 50000) (K := 64) (N := 64) (StableHlo.after hostOps1 (W2 m ρ c) (Proc.devRef .tc main_v34)) (StableHlo.after hostOps1 (W2 m ρ c) (Proc.devRef .tc main_arg4)) (StableHlo.after hostOps1 (W2 m ρ c) (Proc.devRef .tc main_v36)) = _
  rw [o3_v34 m ρ c, o3_arg4 m ρ c, o3_v36 m ρ c]
  unfold zrow
  exact Cert.Gcn.dot64_eq _ _ _ _
theorem o5_v50 : StableHlo.after hostOps2 (W4 m ρ c) (Proc.devRef .tc main_v50) = Cert.Gcn.agg (m ((c : Thread nD τ).loc main_arg1)) (hw1 m c) := by
  after_results_simp
  rw [w4_v3 m ρ c, w4_v1 m ρ c, w4_v30 m ρ c, w4_v37 m ρ c]
  rfl
theorem o5_v37 : StableHlo.after hostOps2 (W4 m ρ c) (Proc.devRef .tc main_v37) = hw1 m c :=
  (show StableHlo.after hostOps2 (W4 m ρ c) (Proc.devRef .tc main_v37) = W4 m ρ c (Proc.devRef .tc main_v37) by after_results).trans (w4_v37 m ρ c)
theorem o5_v51 : StableHlo.after hostOps2 (W4 m ρ c) (Proc.devRef .tc main_v51) = shapeCast S1x64 (m ((c : Thread nD τ).loc main_arg5)) shapeCasts_S64_S1x64 := by
  after_results
  rw [w4_arg5 m ρ c]
  rfl
theorem w6_v52 : W6 m ρ c (Proc.devRef .tc main_v52) = feat1 m c := by
  refine (W6_arr m ρ c 4).trans ((Fin2.final (V5 m ρ) c).trans ?_)
  show floorAt (Ideal.ofBits .f32 0x00000000#32) (finAt (M := 50000) (N := 64) (StableHlo.after hostOps2 (W4 m ρ c) (Proc.devRef .tc main_v50)) (StableHlo.after hostOps2 (W4 m ρ c) (Proc.devRef .tc main_v37)) (StableHlo.after hostOps2 (W4 m ρ c) (Proc.devRef .tc main_v32)) (StableHlo.after hostOps2 (W4 m ρ c) (Proc.devRef .tc main_v51))) = _
  rw [o5_v50 m ρ c, o5_v37 m ρ c, o5_v32 m ρ c, o5_v51 m ρ c]
  exact (congrArg (floorAt (Ideal.ofBits .f32 0x00000000#32)) (Cert.Gcn.convOf_eq (m ((c : Thread nD τ).loc main_arg1)) _ _ (m ((c : Thread nD τ).loc main_arg5)) _ _)).trans (Cert.Gcn.relu_eq _)

/-! ## Convolution 2 -/

theorem o7_v52 : StableHlo.after hostOps3 (W6 m ρ c) (Proc.devRef .tc main_v52) = feat1 m c :=
  (show StableHlo.after hostOps3 (W6 m ρ c) (Proc.devRef .tc main_v52) = W6 m ρ c (Proc.devRef .tc main_v52) by after_results).trans (w6_v52 m ρ c)
theorem o7_v54 : StableHlo.after hostOps3 (W6 m ρ c) (Proc.devRef .tc main_v54) = zrow := by
  after_results
  rfl
theorem w8_v55 : W8 m ρ c (Proc.devRef .tc main_v55) = hw2 m c := by
  unfold hw2
  refine (W8_arr m ρ c 3).trans ((Lin3.final (V7 m ρ) c).trans ?_)
  show linAt (M := 50000) (K := 64) (N := 64) (StableHlo.after hostOps3 (W6 m ρ c) (Proc.devRef .tc main_v52)) (StableHlo.after hostOps3 (W6 m ρ c) (Proc.devRef .tc main_arg6)) (StableHlo.after hostOps3 (W6 m ρ c) (Proc.devRef .tc main_v54)) = _
  rw [o7_v52 m ρ c, o7_arg6 m ρ c, o7_v54 m ρ c]
  unfold zrow
  exact Cert.Gcn.dot64_eq _ _ _ _
theorem o9_v68 : StableHlo.after hostOps4 (W8 m ρ c) (Proc.devRef .tc main_v68) = Cert.Gcn.agg (m ((c : Thread nD τ).loc main_arg1)) (hw2 m c) := by
  after_results_simp
  rw [w8_v3 m ρ c, w8_v1 m ρ c, w8_v30 m ρ c, w8_v55 m ρ c]
  rfl
theorem o9_v55 : StableHlo.after hostOps4 (W8 m ρ c) (Proc.devRef .tc main_v55) = hw2 m c :=
  (show StableHlo.after hostOps4 (W8 m ρ c) (Proc.devRef .tc main_v55) = W8 m ρ c (Proc.devRef .tc main_v55) by after_results).trans (w8_v55 m ρ c)
theorem o9_v69 : StableHlo.after hostOps4 (W8 m ρ c) (Proc.devRef .tc main_v69) = shapeCast S1x64 (m ((c : Thread nD τ).loc main_arg7)) shapeCasts_S64_S1x64 := by
  after_results
  rw [w8_arg7 m ρ c]
  rfl
theorem w10_v70 : W10 m ρ c (Proc.devRef .tc main_v70) = feat2 m c := by
  refine (W10_arr m ρ c 4).trans ((Fin4.final (V9 m ρ) c).trans ?_)
  show floorAt (Ideal.ofBits .f32 0x00000000#32) (finAt (M := 50000) (N := 64) (StableHlo.after hostOps4 (W8 m ρ c) (Proc.devRef .tc main_v68)) (StableHlo.after hostOps4 (W8 m ρ c) (Proc.devRef .tc main_v55)) (StableHlo.after hostOps4 (W8 m ρ c) (Proc.devRef .tc main_v32)) (StableHlo.after hostOps4 (W8 m ρ c) (Proc.devRef .tc main_v69))) = _
  rw [o9_v68 m ρ c, o9_v55 m ρ c, o9_v32 m ρ c, o9_v69 m ρ c]
  exact (congrArg (floorAt (Ideal.ofBits .f32 0x00000000#32)) (Cert.Gcn.convOf_eq (m ((c : Thread nD τ).loc main_arg1)) _ _ (m ((c : Thread nD τ).loc main_arg7)) _ _)).trans (Cert.Gcn.relu_eq _)

/-! ## Convolution 3 -/

theorem o11_v70 : StableHlo.after hostOps5 (W10 m ρ c) (Proc.devRef .tc main_v70) = feat2 m c :=
  (show StableHlo.after hostOps5 (W10 m ρ c) (Proc.devRef .tc main_v70) = W10 m ρ c (Proc.devRef .tc main_v70) by after_results).trans (w10_v70 m ρ c)
theorem o11_v72 : StableHlo.after hostOps5 (W10 m ρ c) (Proc.devRef .tc main_v72) = zrow := by
  after_results
  rfl
theorem w12_v73 : W12 m ρ c (Proc.devRef .tc main_v73) = hw3 m c := by
  unfold hw3
  refine (W12_arr m ρ c 3).trans ((Lin5.final (V11 m ρ) c).trans ?_)
  show linAt (M := 50000) (K := 64) (N := 64) (StableHlo.after hostOps5 (W10 m ρ c) (Proc.devRef .tc main_v70)) (StableHlo.after hostOps5 (W10 m ρ c) (Proc.devRef .tc main_arg8)) (StableHlo.after hostOps5 (W10 m ρ c) (Proc.devRef .tc main_v72)) = _
  rw [o11_v70 m ρ c, o11_arg8 m ρ c, o11_v72 m ρ c]
  unfold zrow
  exact Cert.Gcn.dot64_eq _ _ _ _
theorem o13_v86 : StableHlo.after hostOps6 (W12 m ρ c) (Proc.devRef .tc main_v86) = Cert.Gcn.agg (m ((c : Thread nD τ).loc main_arg1)) (hw3 m c) := by
  after_results_simp
  rw [w12_v3 m ρ c, w12_v1 m ρ c, w12_v30 m ρ c, w12_v73 m ρ c]
  rfl
theorem o13_v73 : StableHlo.after hostOps6 (W12 m ρ c) (Proc.devRef .tc main_v73) = hw3 m c :=
  (show StableHlo.after hostOps6 (W12 m ρ c) (Proc.devRef .tc main_v73) = W12 m ρ c (Proc.devRef .tc main_v73) by after_results).trans (w12_v73 m ρ c)
theorem o13_v87 : StableHlo.after hostOps6 (W12 m ρ c) (Proc.devRef .tc main_v87) = shapeCast S1x64 (m ((c : Thread nD τ).loc main_arg9)) shapeCasts_S64_S1x64 := by
  after_results
  rw [w12_arg9 m ρ c]
  rfl
theorem w14_v88 : W14 m ρ c (Proc.devRef .tc main_v88) = feat3 m c := by
  refine (W14_arr m ρ c 4).trans ((Fin6.final (V13 m ρ) c).trans ?_)
  show finAt (M := 50000) (N := 64) (StableHlo.after hostOps6 (W12 m ρ c) (Proc.devRef .tc main_v86)) (StableHlo.after hostOps6 (W12 m ρ c) (Proc.devRef .tc main_v73)) (StableHlo.after hostOps6 (W12 m ρ c) (Proc.devRef .tc main_v32)) (StableHlo.after hostOps6 (W12 m ρ c) (Proc.devRef .tc main_v87)) = _
  rw [o13_v86 m ρ c, o13_v73 m ρ c, o13_v32 m ρ c, o13_v87 m ρ c]
  exact Cert.Gcn.convOf_eq (m ((c : Thread nD τ).loc main_arg1)) _ _ (m ((c : Thread nD τ).loc main_arg9)) _ _

/-- The result buffer after the whole program holds the network's value at the launch arguments. -/
theorem result : W14 m ρ c (Proc.devRef .tc main_v88) = Cert.Gcn.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (w14_v88 m ρ c).trans (feat3_eq m c)

end Cert.KernelIdeal.Walk

end
-- ==== Proof.RefValue.lean ====
/-
  The reference program's result is the network's value at its arguments.

  The reference is a straight line of host operations: the linear layer, then three convolutions, each of which
  recomputes the degrees, their inverse square roots and the edge weights from the edge list before gathering,
  scaling and summing the messages. Recomputed from the same edge list these are the same arrays each time, so the
  composed term of the run is, operation for operation, the network's stages.
-/
import proofs.«153233_j59854664237127_1_alg».proof.Proof.Gen.ReferenceIdeal.Run
import proofs.«153233_j59854664237127_1_alg».proof.Proof.GcnSpec

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem

/-- The run's composed term is the network of the argument arrays. -/
theorem result_eq (m : (ℓ : Loc nD τ sig) → Buf (Elt Ideal) ℓ) (c : Dev nD) :
    res_main_v156 (F := Ideal) m c = Cert.Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold res_main_v156
  rfl

end Cert.ReferenceIdeal.RefValue

end
-- ==== Proof.lean ====
/-
  A three-layer graph-convolution network over 50000 nodes and 800000 edges, computed two ways.

  The kernel program runs the four matrix products and the three finishing steps as row-blocked kernel launches
  (ten blocks of 5000 rows each), computes the graph's normalization (degrees, their inverse square roots, the
  edges' weights) ONCE on the host, and gathers and sums the messages on the host between launches. The reference
  is plain array code that recomputes the normalization in every layer.

  On the extended reals the two agree for every input, whatever the edge list holds:
  * a narrowing of a float format is the identity, and a blocked product is the product, block row by block row;
  * each convolution's product is accumulated onto a row of zeros, and x + 0 = x for every extended real;
  * the finishing step adds the same three terms in the same order, and floors at the same zero;
  * the normalization is a function of the edge list alone, so computing it once or three times gives the same
    arrays, and the gathers and the sums into destinations are the same operations applied to the same arrays.
  No distributivity or cancellation is used, so no finiteness of the inputs is needed for the values; the
  precondition is not opened.

  Frames: the two kernel programs' are the generated ones; the reference's is its run with the result forgotten.
  Read over the extended reals the kernel program is its own text, operation for operation, so there is nothing to
  preserve between the two readings.
-/
import proofs.«153233_j59854664237127_1_alg».proof.Defs
import proofs.«153233_j59854664237127_1_alg».proof.Proof.Gen.Kernel
import proofs.«153233_j59854664237127_1_alg».proof.Proof.Gen.Kernel.Skeleton
import proofs.«153233_j59854664237127_1_alg».proof.Proof.Gen.Kernel.Launch
import proofs.«153233_j59854664237127_1_alg».proof.Proof.Gen.Kernel.Points
import proofs.«153233_j59854664237127_1_alg».proof.Proof.Gen.Kernel.Frame
import proofs.«153233_j59854664237127_1_alg».proof.Proof.Gen.KernelIdeal
import proofs.«153233_j59854664237127_1_alg».proof.Proof.Gen.KernelIdeal.Skeleton
import proofs.«153233_j59854664237127_1_alg».proof.Proof.Gen.KernelIdeal.Launch
import proofs.«153233_j59854664237127_1_alg».proof.Proof.Gen.KernelIdeal.Points
import proofs.«153233_j59854664237127_1_alg».proof.Proof.Gen.KernelIdeal.Frame
import proofs.«153233_j59854664237127_1_alg».proof.Proof.Gen.ReferenceIdeal
import proofs.«153233_j59854664237127_1_alg».proof.Proof.Gen.ReferenceIdeal.Run
import proofs.«153233_j59854664237127_1_alg».proof.Proof.Gen.Pre_finite_inputs
import proofs.«153233_j59854664237127_1_alg».proof.Proof.ResultRun
import proofs.«153233_j59854664237127_1_alg».proof.Proof.KernelValue
import proofs.«153233_j59854664237127_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network's value at the (agreeing) arguments in their result buffers. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Walk.result m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.RefValue.result_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
